-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000 : Shape := ⟨1, ![1000]⟩
abbrev S16384 : Shape := ⟨1, ![16384]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S1000 .f32) (main_arg1 : IVec S16384 32) : IVec S_ 1 :=
  let main_v0 : FVec F S1000 .f32 := Host.absf main_arg0
  let main_cst : FVec F S_ .f32 := constant S_ .f32 0x7F800000#32
  let main_v1 : FVec F S1000 .f32 := broadcastInDim S1000 ![] bcast_S_S1000 main_cst
  let main_v2 : IVec S1000 1 := cmpf .olt main_v0 main_v1
  let main_c : IVec S_ 1 := constantI S_ 1 1#1
  let main_v3 : IVec S_ 1 := (fun x v => Host.reduce IntOp.andi x v reducesTo_S1000_S_d0 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S1000 : Shape := ⟨1, ![1000]⟩
abbrev S16384 : Shape := ⟨1, ![16384]⟩
abbrev S1024 : Shape := ⟨1, ![1024]⟩
abbrev S_ : Shape := ⟨0, ![]⟩
abbrev S16 : Shape := ⟨1, ![16]⟩

abbrev nBuf : Table → Nat
  | .hbm => 4
  | .local .tc .vmem => 2
  | .local .scVector .vmem => 3
  | _ => 0

abbrev bufTy : (tb : Table) → Fin (nBuf tb) → BufTy
  | .hbm, ⟨0, _⟩ => ⟨S1000, .f32⟩
  | .hbm, ⟨1, _⟩ => ⟨S16384, .i32⟩
  | .hbm, ⟨2, _⟩ => ⟨S1000, .f32⟩
  | .hbm, ⟨3, _⟩ => ⟨S16384, .f32⟩
  | .local .tc .vmem, ⟨0, _⟩ => ⟨S1000, .f32⟩
  | .local .tc .vmem, ⟨1, _⟩ => ⟨S1000, .f32⟩
  | .local .scVector .vmem, ⟨0, _⟩ => ⟨S1000, .f32⟩
  | .local .scVector .vmem, ⟨1, _⟩ => ⟨S1024, .i32⟩
  | .local .scVector .vmem, ⟨2, _⟩ => ⟨S1024, .f32⟩
  | _, _ => ⟨S1000, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => true
  | ⟨1, _⟩ => true
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_stg0_0 : Ref sig .tc := ⟨.vmem, 0, rfl⟩
abbrev cc0_stg1_0 : Ref sig .tc := ⟨.vmem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![1, 16], ![false, false]⟩

def k1_off1 (i : grid1.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k1_t1_loop : Scf.Loop 32 :=
  let c0_i32_0 : BitVec 32 := 0#32
  let c64_i32 : BitVec 32 := 64#32
  let v7 : BitVec 32 := Scalar.addi c0_i32_0 c64_i32
  let c1_i32_1 : BitVec 32 := 1#32
  ⟨c0_i32_0, v7, c1_i32_1⟩
def k1_off2 (k1_t1 : Fin k1_t1_loop.trips) : Fin 1 → Nat :=
  let c0_i32_0 : BitVec 32 := 0#32
  let c1_i32_1 : BitVec 32 := 1#32
  let arg10 : BitVec 32 := Scf.iv c0_i32_0 c1_i32_1 k1_t1
  let c16_i32 : BitVec 32 := 16#32
  let v8 : BitVec 32 := Scalar.muli arg10 c16_i32
  let v9 : Index := Scalar.indexCast v8
  ![v9.toNat]

def k1_chk1 (v10 : IVec S16 32) : Prop :=
  (∀ a x, ((![v10] : Fin 1 → IVec S16 32) a x).toNat < S1000.size a)
instance k1_chk1.dec : ∀ (v10 : IVec S16 32), Decidable (k1_chk1 v10) := fun v10 => decidable_of_iff' _ (Iff.of_eq (k1_chk1.eq_1 v10))
theorem k1_idx1_inb : ∀ (v10 : IVec S16 32) (k1_hw1 : k1_chk1 v10), ∀ a x, ((![v10] : Fin 1 → IVec S16 32) a x).toNat < S1000.size a := fun v10 k1_hw1 => k1_hw1
def k1_off3 (k1_t1 : Fin k1_t1_loop.trips) : Fin 1 → Nat :=
  let c0_i32_0 : BitVec 32 := 0#32
  let c1_i32_1 : BitVec 32 := 1#32
  let arg10 : BitVec 32 := Scf.iv c0_i32_0 c1_i32_1 k1_t1
  let c16_i32_3 : BitVec 32 := 16#32
  let v12 : BitVec 32 := Scalar.muli arg10 c16_i32_3
  let v13 : Index := Scalar.indexCast v12
  ![v13.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000_S1000_0 : ∀ a, (![0] : Fin 1 → Nat) a + S1000.size a ≤ S1000.size a
  h_S1000 : 0 < S1000.numel
  h_S16 : 0 < S16.numel
  hcc1_scratch3 : 2 + S_.numel ≤ 5
  hcc1_scratch4 : 3 + S_.numel ≤ 5
  hcc1_scoped0 : 4 + S_.numel ≤ 5
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hcore1 : grid1.bound 0 ≤ τ.nSC
  hsub1 : grid1.bound 1 ≤ τ.nSub
  k1_off1_inb : ∀ i : grid1.Coords, ∀ a, (k1_off1 i) a + S1024.size a ≤ S16384.size a
  k1_t1_ok : k1_t1_loop.OK
  k1_off2_inb : ∀ k1_t1 : Fin k1_t1_loop.trips, ∀ a, (k1_off2 k1_t1) a + S16.size a ≤ S1024.size a
  k1_off3_inb : ∀ k1_t1 : Fin k1_t1_loop.trips, ∀ a, (k1_off3 k1_t1) a + S16.size a ≤ S1024.size a

variable [Facts₀]

abbrev cc1_scratch3 : DmaSems sig S_ := SemArray.consecutive 2 S_ hcc1_scratch3
abbrev cc1_scratch4 : DmaSems sig S_ := SemArray.consecutive 3 S_ hcc1_scratch4
abbrev cc1_scoped0 : DmaSems sig S_ := SemArray.consecutive 4 S_ hcc1_scoped0

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000 : Shape := ⟨1, ![1000]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S1000, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384, .f32⟩
  | _, _ => ⟨S1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S1000_S16384x1_S16384_n_0_n_n_0_1_1_wf : GatherDims.WF S1000 S16384x1 S16384 [] [0] [] [0] [] 1 ![1]

variable [Facts₀]

def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf

class Facts : Prop extends Facts₀ where

variable [Facts]
-- ==== Proof.Spec.lean ====
/-
  What both programs compute. A table `p` holds 1000 numbers and `c` holds 16384 index words. Entry `j` of the
  result is the logarithm of the table's entry at the position the word `c j` names. A word names its value as a
  natural number, cut at 999; for a word that is between 0 and 999 as a signed integer that is the word's value,
  and it is also what clamping the signed value into [0, 999] gives. Taking the logarithm of the whole table first
  and then picking entries, or picking entries first and then taking their logarithms, is the same thing: both are
  the logarithm of the picked entry.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S1000 : Shape := ⟨1, ![1000]⟩
abbrev S16384 : Shape := ⟨1, ![16384]⟩

/-- The table position an index word names: its value as a natural number, cut at 999. -/
def pos (w : BitVec 32) : S1000.Idx := ix1 ⟨min w.toNat 999, by omega⟩

/-- The picked entries: entry `j` is the table at the position the word `c j` names. -/
def picked {α : Type} (t : S1000.Idx → α) (c : IVec S16384 32) : S16384.Idx → α := fun j => t (pos (c j))

variable {F : FTy → Type} [FloatOps F]

/-- The result as the kernel arranges it: the table of logarithms, then the picking. -/
def G (p : FVec F S1000 .f32) (c : IVec S16384 32) : FVec F S16384 .f32 := picked (log p) c

/-- The result as the reference arranges it: the picking, then the logarithm of each picked entry. -/
def GH (p : FVec F S1000 .f32) (c : IVec S16384 32) : FVec F S16384 .f32 := Host.log (picked p c)

/-- On the extended reals both arrangements are the logarithm of the picked entry. -/
theorem GH_eq_G (p : FVec Ideal S1000 .f32) (c : IVec S16384 32) : GH (F := Ideal) p c = G (F := Ideal) p c := by
  funext j
  simp only [GH, G, picked, log, Host.log, Ideal.log_def, Ideal.hostUnary_log_def]

/-- Every index word is between 0 and 999 as a signed integer. -/
def InRange (c : IVec S16384 32) : Prop := ∀ j, 0 ≤ (c j).toInt ∧ (c j).toInt ≤ 999

theorem toInt_eq_toNat {w : BitVec 32} (h0 : 0 ≤ w.toInt) : w.toInt = (w.toNat : Int) := by
  rw [BitVec.toInt_eq_toNat_cond] at h0 ⊢
  split at h0 <;> rename_i hlt
  · rw [if_pos hlt]
  · exfalso; have := w.isLt; omega

theorem toNat_lt {c : IVec S16384 32} (h : InRange c) (j : S16384.Idx) : (c j).toNat < 1000 := by
  have h1 := toInt_eq_toNat (h j).1
  have h2 := (h j).2
  omega

/-- For a word in range the position it names is its value. -/
theorem pos_val {c : IVec S16384 32} (h : InRange c) (j : S16384.Idx) : (pos (c j) 0).val = (c j).toNat := by
  show min (c j).toNat 999 = (c j).toNat
  have := toNat_lt h j
  omega

/-- For a word in range, clamping its signed value into [0, 999] names the same position. -/
theorem clamp_eq_pos {c : IVec S16384 32} (h : InRange c) (j : S16384.Idx) :
    (ix1 ⟨min (c j).toInt.toNat (1000 - 1), by omega⟩ : S1000.Idx) = pos (c j) := by
  have h1 := toInt_eq_toNat (h j).1
  unfold pos
  congr 2
  rw [h1]; simp

end Cert.Spec

end
-- ==== Proof.KernelSetup.lean ====
/-
  The kernel's program as the launch theorem of the SparseCore library sees it, and what travels with its handshakes.

  The program: the TensorCore first takes the logarithm of the whole table `p` (1000 numbers) into a second table
  `t`; then sixteen vector subcores of one SparseCore each copy `t` whole and their own 1024 index words of `c`
  into scratch memory, pick the sixteen entries of `t` that sixteen words name, sixty-four times over, and copy
  the 1024 picked entries to their own stretch of the result `o`.

  The call hands the SparseCore `t` (at the table of logarithms), `c` and `o` whole; each vector subcore gets a read
  share of `t`, stretch `i` of `c` and stretch `i` of `o`, and hands back the same with its stretch of `o` holding
  the picked logarithms.
-/
import proofs.«204160_g61692910239824_cont_9to1_m_427_19_alg».proof.Kernel
import proofs.«204160_g61692910239824_cont_9to1_m_427_19_alg».proof.Proof.Gen.Kernel
import proofs.«204160_g61692910239824_cont_9to1_m_427_19_alg».proof.Proof.Gen.Kernel.Skeleton
import proofs.«204160_g61692910239824_cont_9to1_m_427_19_alg».proof.Proof.Gen.Kernel.Launch
import proofs.«204160_g61692910239824_cont_9to1_m_427_19_alg».proof.Proof.Gen.Kernel.Points
import proofs.«204160_g61692910239824_cont_9to1_m_427_19_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore call's staging cells, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore call's staging cells: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The launch memory and the arrays -/

variable (m : (ℓ : Loc nD τ sig) → Buf (Elt F) ℓ) (ρ : Dev nD → PrngReg)

/-- The table `p`, the index words `c`, the table of logarithms `t`, the result `o`, as locations of device `d`. -/
abbrev pLoc (d : Dev nD) : Loc nD τ sig := (SparseCore.T d).loc main_arg0
abbrev cLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

variable [FloatOps F]

/-- The table of logarithms of the launch memory's table. -/
def tab (d : Dev nD) : Buf (Elt F) (tLoc d) := (log (m (pLoc d) : FVec F S1000 .f32) : FVec F S1000 .f32)
/-- The result: the logarithm table's entries picked by the launch memory's index words. -/
def res (d : Dev nD) : Buf (Elt F) (oLoc d) :=
  (Cert.Spec.G (F := F) (m (pLoc d) : FVec F S1000 .f32) (m (cLoc d) : IVec S16384 32) : FVec F S16384 .f32)

theorem hdiv : 16 ∣ S16384.size 0 := ⟨1024, rfl⟩
/-- Stretch `i` of the 16384 positions: the 1024 from `1024 * i` on. -/
abbrev chunk (i : Fin 16) : Rect S16384 := Rect.part (s := S16384) (a₀ := 0) hdiv i
abbrev chunkSet (i : Fin 16) : Finset S16384.Idx := ((Memref.whole main_arg1_scv : Memref sig .scVector .hbm S16384 .i32).view.slice (chunk i)).set

abbrev pPts (d : Dev nD) : sProp 𝕄 := pLoc d ↦{fullShare} m (pLoc d)
abbrev cPts (d : Dev nD) : sProp 𝕄 := cLoc d ↦{fullShare} m (cLoc d)
abbrev tPts (d : Dev nD) (f : Buf (Elt F) (tLoc d)) : sProp 𝕄 := tLoc d ↦{fullShare} f
abbrev oPts (d : Dev nD) (f : Buf (Elt F) (oLoc d)) : sProp 𝕄 := oLoc d ↦{fullShare} f
/-- Vector subcore `i`'s read share of `t`, its stretch of `c`, its stretch of `o`. -/
abbrev tTok (d : Dev nD) (i : Fin 16) (f : Buf (Elt F) (tLoc d)) : sProp 𝕄 := tLoc d ↦{Transfers.shareTok fullShare 16 i} f
abbrev cChunk (d : Dev nD) (i : Fin 16) : sProp 𝕄 := cLoc d ↦[chunkSet i]{fullShare} m (cLoc d)
abbrev oChunk (d : Dev nD) (i : Fin 16) (f : Buf (Elt F) (oLoc d)) : sProp 𝕄 := oLoc d ↦[chunkSet i]{fullShare} f

/-! ## What the handshakes carry -/

def P : (K (F := F)).Pay (nD := nD) (Val := Elt F) (Name := ℕ) (U := UU) where
  st := fun _ d _ => iprop(tPts d (tab m d) ∗ cPts m d ∗ ∃ f, oPts d f)
  dn := fun _ d _ => iprop(tPts d (tab m d) ∗ cPts m d ∗ oPts d (res m d))
  go := fun q d _ i => match q with
    | 0 => iprop(tTok d (Fin.cast nSub_zero i) (tab m d) ∗ cChunk m d (Fin.cast nSub_zero i) ∗ ∃ f, oChunk d (Fin.cast nSub_zero i) f)
  td := fun q d _ i => match q with
    | 0 => iprop(tTok d (Fin.cast nSub_zero i) (tab m d) ∗ cChunk m d (Fin.cast nSub_zero i) ∗ oChunk d (Fin.cast nSub_zero i) (res m d))
  x := fun _ _ => iprop(emp)

instance P_storable : (P (F := F) m).IsStorable where
  st _ d _ := by unfold P; infer_instance
  dn _ d _ := by unfold P; infer_instance
  go q d _ i := match q with
    | 0 => (inferInstance : BI.Storable (upEmb : UEmb _ 𝕄)
        iprop(tTok d (Fin.cast nSub_zero i) (tab m d) ∗ cChunk m d (Fin.cast nSub_zero i) ∗ ∃ f, oChunk d (Fin.cast nSub_zero i) f))
  td q d _ i := match q with
    | 0 => (inferInstance : BI.Storable (upEmb : UEmb _ 𝕄)
        iprop(tTok d (Fin.cast nSub_zero i) (tab m d) ∗ cChunk m d (Fin.cast nSub_zero i) ∗ oChunk d (Fin.cast nSub_zero i) (res m d)))

theorem P_st (q : Fin 1) (d : Dev nD) (c : Fin ((K (F := F)).nCore q)) :
    (P (F := F) m).st q d c = iprop(tPts d (tab m d) ∗ cPts m d ∗ ∃ f, oPts d f) := rfl
theorem P_dn (q : Fin 1) (d : Dev nD) (c : Fin ((K (F := F)).nCore q)) :
    (P (F := F) m).dn q d c = iprop(tPts d (tab m d) ∗ cPts m d ∗ oPts d (res m d)) := rfl

/-- What @main leaves the claim: `p` and `c` at their launch contents, `o` at the result. -/
abbrev FIN (d : Dev nD) : sProp 𝕄 := iprop(pPts m d ∗ cPts m d ∗ oPts d (res m d))

end Cert.Kernel.Run

end
-- ==== Proof.KernelSplit.lean ====
/-
  How the call's arrays are dealt to the sixteen vector subcores and gathered back.

  The table of logarithms is read whole by every subcore, so each gets a read share of it (sixteen shares split
  off the full share, the remainder kept aside until the shares come back). The index words and the result are cut
  into sixteen stretches of 1024 positions, pairwise disjoint and together everything; subcore `i` gets stretch `i`
  of each. When every subcore hands back its stretch of the result holding the result's entries, the stretches join
  to the whole result.
-/
import proofs.«204160_g61692910239824_cont_9to1_m_427_19_alg».proof.Proof.KernelSetup

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem chunkSet_eq (i : Fin 16) : chunkSet i = (chunk i).set := by
  show ((View.whole (main_arg1_scv : Ref sig .scVector)).slice (chunk i)).set = _
  rw [View.set_slice]; exact Finset.map_refl
theorem chunks_disjoint : ∀ i ∈ (Finset.univ : Finset (Fin 16)), ∀ j ∈ (Finset.univ : Finset (Fin 16)), i ≠ j → Disjoint (chunkSet i) (chunkSet j) :=
  fun i _ j _ h => by rw [chunkSet_eq, chunkSet_eq]; exact Rect.part_disjoint hdiv h
theorem chunks_cover : (Finset.univ : Finset (Fin 16)).biUnion chunkSet = Finset.univ :=
  (Finset.biUnion_congr rfl fun i _ => chunkSet_eq i).trans (Rect.biUnion_part hdiv)

theorem cPts_chunks (d : Dev nD) (f : Buf (Elt F) (cLoc d)) :
    (cLoc d ↦{fullShare} f : sProp 𝕄) = bigSep Finset.univ fun i : Fin 16 => cLoc d ↦[chunkSet i]{fullShare} f := by
  rw [← pointsTo_biUnion Finset.univ (ℓ := cLoc d) chunkSet chunks_disjoint, chunks_cover]; try rfl
theorem oPts_chunks (d : Dev nD) (f : Buf (Elt F) (oLoc d)) :
    (oLoc d ↦{fullShare} f : sProp 𝕄) = bigSep Finset.univ fun i : Fin 16 => oLoc d ↦[chunkSet i]{fullShare} f := by
  rw [← pointsTo_biUnion Finset.univ (ℓ := oLoc d) chunkSet chunks_disjoint, chunks_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem vecSplit : (K (F := F)).VecSplit' (P m) 0 := by
  intro d c
  show iprop(tPts d (tab m d) ∗ cPts m d ∗ ∃ f, oPts d f) ⊢ |={Set.univ}=> iprop(
      (bigSep Finset.univ fun i : Fin ((K (F := F)).nSub 0) =>
        iprop(tTok d (Fin.cast nSub_zero i) (tab m d) ∗ cChunk m d (Fin.cast nSub_zero i) ∗ ∃ f, oChunk d (Fin.cast nSub_zero i) f))
      ∗ ((bigSep Finset.univ fun i : Fin ((K (F := F)).nSub 0) =>
          iprop(tTok d (Fin.cast nSub_zero i) (tab m d) ∗ cChunk m d (Fin.cast nSub_zero i) ∗ oChunk d (Fin.cast nSub_zero i) (res m d)))
          -∗ iprop(tPts d (tab m d) ∗ cPts m d ∗ oPts d (res m d))))
  rw [bigSep_tasks (F := F) (fun i => iprop(tTok d i (tab m d) ∗ cChunk m d i ∗ ∃ f, oChunk d i f)),
    bigSep_tasks (F := F) (fun i => iprop(tTok d i (tab m d) ∗ cChunk m d i ∗ oChunk d i (res m d))), bigSep_sep', bigSep_sep', bigSep_sep', bigSep_sep']
  unfold tPts cPts oPts cChunk oChunk tTok
  rw [cPts_chunks, oPts_chunks (F := F) d (res m d)]
  iintro ⟨Ht, Hc, %f, Ho⟩
  ihave Ht' := (Transfers.pointsTo_toks (ℓ := tLoc d) (S := Finset.univ) (f := tab m d) fullShare 16).1 $$ Ht
  icases Ht' with ⟨Hdrop, Htoks⟩
  ihave Ho' := (Entails.of_eq (oPts_chunks (F := F) d f)) $$ Ho
  imodintro
  isplitl [Htoks Hc Ho']
  · isplitl [Htoks]; · iexact Htoks
    isplitl [Hc]; · iexact Hc
    have hex : (bigSep Finset.univ fun i : Fin 16 => (oLoc d ↦[chunkSet i]{fullShare} f : sProp 𝕄))
        ⊢ bigSep Finset.univ fun i : Fin 16 => (iprop(∃ g, oLoc d ↦[chunkSet i]{fullShare} g) : sProp 𝕄) :=
      bigSep_mono fun i _ => exists_intro (Φ := fun g => (oLoc d ↦[chunkSet i]{fullShare} g : sProp 𝕄)) f
    iapply hex
    iexact Ho'
  iintro ⟨Htoks, Hc, Ho⟩
  isplitl [Hdrop Htoks]
  · iapply (Transfers.pointsTo_toks (ℓ := tLoc d) (S := Finset.univ) (f := tab m d) fullShare 16).2
    isplitl [Hdrop]; · iexact Hdrop
    iexact Htoks
  isplitl [Hc]; · iexact Hc
  iexact Ho

end Cert.Kernel.Run

end
-- ==== Proof.KernelTileValue.lean ====
/-
  The arithmetic of one vector subcore's work, apart from the program's run.

  The subcore holds the whole table of logarithms `g0` and its 1024 index words `g1` in scratch memory. Trip `k` of
  its loop reads the sixteen words at positions `16 k … 16 k + 15`, picks the table's entries they name, and stores
  them at the same sixteen positions of the out scratch. So before trip `k` the first `16 k` entries of the out
  scratch are the picked entries (`Done`), one trip extends that by sixteen (`done_step`), and after the 64 trips
  the whole out scratch is picked; copied to the subcore's stretch of the result it makes that stretch the result's
  (`out_eq_res`), because position `x` of the stretch of subcore `j` is position `1024 j + x` of the whole.
-/
import proofs.«204160_g61692910239824_cont_9to1_m_427_19_alg».proof.Proof.KernelSetup

noncomputable section

namespace Cert.Kernel.Run

open Cert.Kernel Cert.Kernel.Gen

open Idealize.ShloMosaic Idealize.ShloMosaic.ValueIdx
open Idealize.ShloMosaic.SparseCore (S V T)
open Idealize.SL Idealize.SL.Sem

variable {F : FTy → Type}

variable (m : (ℓ : Loc nD τ sig) → Buf (Elt F) ℓ)

local notation "cW" => (Memref.whole Cert.Kernel.main_arg1_scv : Memref Cert.Kernel.sig Kind.scVector Space.hbm Cert.Kernel.S16384 EltTy.i32)
local notation "oW" => (Memref.whole Cert.Kernel.main_v1_scv : Memref Cert.Kernel.sig Kind.scVector Space.hbm Cert.Kernel.S16384 EltTy.f32)
local notation "s0W" => (Memref.whole Cert.Kernel.cc1_scratch0 : Memref Cert.Kernel.sig Kind.scVector Space.vmem Cert.Kernel.S1000 EltTy.f32)
local notation "s1W" => (Memref.whole Cert.Kernel.cc1_scratch1 : Memref Cert.Kernel.sig Kind.scVector Space.vmem Cert.Kernel.S1024 EltTy.i32)
local notation "s2W" => (Memref.whole Cert.Kernel.cc1_scratch2 : Memref Cert.Kernel.sig Kind.scVector Space.vmem Cert.Kernel.S1024 EltTy.f32)

/-- The subcore's stretch of the index words and of the result, as the kernel slices them. -/
abbrev cSl (L : grid1.Coords) : Memref sig .scVector .hbm S1024 .i32 :=
  (cW).slice (Rect.unit (s := S16384) (k1_off1 L) S1024.size (k1_off1_inb L)) (fun _ => rfl)
abbrev oSl (L : grid1.Coords) : Memref sig .scVector .hbm S1024 .f32 :=
  (oW).slice (Rect.unit (s := S16384) (k1_off1 L) S1024.size (k1_off1_inb L)) (fun _ => rfl)

/-- Every index word of the launch memory is between 0 and 999 as a signed integer. -/
def PreOK : Prop := ∀ d : Dev nD, Cert.Spec.InRange (m (cLoc d) : IVec S16384 32)

variable [FloatOps F]

/-- What the two fetches leave in the scratch memories: the whole table of logarithms, and the subcore's stretch of
    the index words. -/
def Landed (d : Dev nD) (L : grid1.Coords) (g0 : Vec F S1000 .f32) (g1 : Vec F S1024 .i32) : Prop :=
  (∀ x, g0 x = (tab m d : Vec F S1000 .f32) x) ∧ (∀ x, g1 x = (m (cLoc d) : Vec F S16384 .i32) ((cSl L).view.emb x))

/-- Before trip `k` the first `16 * k` entries of the out scratch are the picked entries. -/
def Done (g0 : Vec F S1000 .f32) (g1 : Vec F S1024 .i32) (k : Nat) (f2 : Vec F S1024 .f32) : Prop :=
  ∀ x : S1024.Idx, (x 0).val < 16 * k → f2 x = g0 (Cert.Spec.pos (g1 x))

/-- The fetched words are words of the launch memory, so in range. -/
theorem landed_lt {d : Dev nD} {L : grid1.Coords} {g0 : Vec F S1000 .f32} {g1 : Vec F S1024 .i32} (hpre : PreOK m) (h : Landed m d L g0 g1)
    (x : S1024.Idx) : (g1 x).toNat < 1000 := by
  rw [h.2]; exact Cert.Spec.toNat_lt (hpre d) _

/-- The check the kernel makes of the sixteen words trip `k` loaded: each names a table position. -/
theorem chk_of_landed {d : Dev nD} {L : grid1.Coords} {g0 : Vec F S1000 .f32} {g1 : Vec F S1024 .i32} (hpre : PreOK m) (h : Landed m d L g0 g1)
    (k : Fin k1_t1_loop.trips) :
    k1_chk1 (View.readAt (Elt F) (s1W).view (Rect.unit (s := S1024) (k1_off2 k) S16.size (k1_off2_inb k)).toLoadRect g1) := by
  intro a x
  obtain rfl : a = 0 := Subsingleton.elim _ _
  show (View.readAt (Elt F) (s1W).view (Rect.unit (s := S1024) (k1_off2 k) S16.size (k1_off2_inb k)).toLoadRect g1 x).toNat < 1000
  simp only [View.readAt_apply, Memref.view_whole, View.read_whole]
  exact landed_lt m hpre h _

omit [FloatOps F] in
/-- One trip: the sixteen picked entries stored at positions `16 k … 16 k + 15` extend the done prefix. -/
theorem done_step (g0 : Vec F S1000 .f32) (g1 : Vec F S1024 .i32) (g2 : Vec F S1024 .f32) (k : Fin k1_t1_loop.trips)
    (hin : ∀ a x, ((![View.readAt (Elt F) (s1W).view (Rect.unit (s := S1024) (k1_off2 k) S16.size (k1_off2_inb k)).toLoadRect g1] : Fin 1 → IVec S16 32) a x).toNat < S1000.size a)
    (hr : ∀ x, (g1 x).toNat < 1000) (hdone : Done g0 g1 k.val g2) :
    Done g0 g1 (k.val + 1) ((s2W).view.writes (Elt F) g2
      [⟨Rect.unit (s := S1024) (k1_off3 k) S16.size (k1_off3_inb k),
        loadIdx (View.read (Elt F) ((s0W).access (Rect.whole S1000)) g0)
          ![View.readAt (Elt F) (s1W).view (Rect.unit (s := S1024) (k1_off2 k) S16.size (k1_off2_inb k)).toLoadRect g1] hin⟩]) := by
  intro x hx
  rw [View.writes_singleton]
  by_cases hlt : (x 0).val < 16 * k.val
  · refine (View.write_of_not_mem (v := (s2W).view.slice (Rect.unit (s := S1024) (k1_off3 k) S16.size (k1_off3_inb k))) (Val := Elt F)
      g2 _ Finset.univ (i := x) ?_).trans (hdone x hlt)
    · rw [View.setOn_univ]
      show x ∉ ((View.whole (cc1_scratch2 : Ref sig .scVector)).slice (Rect.unit (s := S1024) (k1_off3 k) S16.size (k1_off3_inb k))).set
      rw [View.set_slice_whole, Rect.mem_set_unit]
      intro h
      have h0 := h 0
      rw [k1_off3_eq] at h0
      simp only [Matrix.cons_val_zero] at h0
      omega
  · have hk : k.val < 64 := lt_of_lt_of_le k.isLt k1_t1_abs.2.1
    have hx0 : (x 0).val - 16 * k.val < 16 := by omega
    let y : S16.Idx := ix1 ⟨(x 0).val - 16 * k.val, hx0⟩
    have hxy : (Rect.unit (s := S1024) (k1_off3 k) S16.size (k1_off3_inb k)).emb y = x := by
      funext a
      obtain rfl : a = 0 := Subsingleton.elim _ _
      apply Fin.ext
      have e3 : k1_off3 k 0 = 16 * k.val := congrFun (k1_off3_eq k) 0
      show k1_off3 k 0 + 1 * ((x 0).val - 16 * k.val) = (x 0).val
      omega
    have hxy2 : (Rect.unit (s := S1024) (k1_off2 k) S16.size (k1_off2_inb k)).toLoadRect.idx y = x := by
      funext a
      obtain rfl : a = 0 := Subsingleton.elim _ _
      apply Fin.ext
      have e2 : k1_off2 k 0 = 16 * k.val := congrFun (k1_off2_eq k) 0
      show k1_off2 k 0 + 1 * ((x 0).val - 16 * k.val) = (x 0).val
      omega
    have hemb : ((View.whole (cc1_scratch2 : Ref sig .scVector)).slice (Rect.unit (s := S1024) (k1_off3 k) S16.size (k1_off3_inb k))).emb y = x := hxy
    conv_lhs => rw [← hemb]
    rw [View.write_emb_of_mem _ _ (Finset.mem_univ y)]
    show loadIdx (View.read (Elt F) ((s0W).access (Rect.whole S1000)) g0)
          ![View.readAt (Elt F) (s1W).view (Rect.unit (s := S1024) (k1_off2 k) S16.size (k1_off2_inb k)).toLoadRect g1] hin y = _
    unfold loadIdx
    rw [View.read_apply]
    show g0 _ = g0 _
    refine congrArg g0 (funext fun (a : Fin 1) => ?_)
    obtain rfl : a = 0 := Subsingleton.elim _ _
    apply Fin.ext
    show 0 + 1 * (View.readAt (Elt F) (s1W).view (Rect.unit (s := S1024) (k1_off2 k) S16.size (k1_off2_inb k)).toLoadRect g1 y).toNat = min (g1 x).toNat 999
    rw [View.readAt_apply, hxy2]
    show 0 + 1 * (g1 x).toNat = _
    have := hr x
    omega

/-- After the 64 trips the out scratch holds all 1024 picked entries; copied whole onto the subcore's stretch of the
    result it makes every position of that stretch the result's entry there: position `x` of the stretch is a position
    `i` of the whole array, the word fetched for `x` is the launch memory's word at `i`, and the fetched table is the
    table of logarithms. -/
theorem out_eq_res (d : Dev nD) (L : grid1.Coords) (g0 : Vec F S1000 .f32) (g1 : Vec F S1024 .i32) (g2 : Vec F S1024 .f32)
    (hland : Landed m d L g0 g1) (hdone : Done g0 g1 64 g2) (fo : Buf (Elt F) (oLoc d)) (w : S1024.Idx → Elt F .f32) (hw : ∀ x, w x = g2 x) :
    ∀ i ∈ (oSl L).view.set, (oSl L).view.writes (Elt F) fo [⟨Rect.whole S1024, w⟩] i = res m d i := by
  intro i hi
  obtain ⟨x, -, rfl⟩ := Finset.mem_map.mp hi
  rw [View.writes_singleton]
  have hwx : (Rect.whole S1024).emb x = x := by
    funext a
    obtain rfl : a = 0 := Subsingleton.elim _ _
    apply Fin.ext
    show 0 + 1 * (x 0).val = (x 0).val
    omega
  have he : ((oSl L).view.slice (Rect.whole S1024)).emb x = (oSl L).view.emb x := by
    show (oSl L).view.emb ((Rect.whole S1024).emb x) = _
    rw [hwx]
  rw [← he, View.write_emb_of_mem _ _ (Finset.mem_univ x)]
  show w x = _
  have hx : (x 0).val < 16 * 64 := (x 0).isLt
  rw [hw, hdone x hx, hland.1, hland.2, he]
  rfl

end Cert.Kernel.Run

end
-- ==== Proof.KernelTile.lean ====
/-
  One vector subcore's task, run: it fetches the whole table of logarithms and its own 1024 index words into
  scratch memory (two copies, each waited for), then sixty-four times loads sixteen words, checks that each names a
  table position (true because every index word of the launch memory is between 0 and 999), picks the table's
  entries they name and stores them in the out scratch; finally it copies the out scratch to its own stretch of the
  result and waits for that copy. The stretch then holds the result's entries (the arithmetic is in the module of
  the subcore's values); the table's read share and the stretch of the index words come back unchanged.
-/
import proofs.«204160_g61692910239824_cont_9to1_m_427_19_alg».proof.Proof.KernelTileValue

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.Kernel.main_v0_scv : Memref Cert.Kernel.sig Kind.scVector Space.hbm Cert.Kernel.S1000 EltTy.f32)
local notation "cW" => (Memref.whole Cert.Kernel.main_arg1_scv : Memref Cert.Kernel.sig Kind.scVector Space.hbm Cert.Kernel.S16384 EltTy.i32)
local notation "oW" => (Memref.whole Cert.Kernel.main_v1_scv : Memref Cert.Kernel.sig Kind.scVector Space.hbm Cert.Kernel.S16384 EltTy.f32)
local notation "s0W" => (Memref.whole Cert.Kernel.cc1_scratch0 : Memref Cert.Kernel.sig Kind.scVector Space.vmem Cert.Kernel.S1000 EltTy.f32)
local notation "s1W" => (Memref.whole Cert.Kernel.cc1_scratch1 : Memref Cert.Kernel.sig Kind.scVector Space.vmem Cert.Kernel.S1024 EltTy.i32)
local notation "s2W" => (Memref.whole Cert.Kernel.cc1_scratch2 : Memref Cert.Kernel.sig Kind.scVector Space.vmem Cert.Kernel.S1024 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_one : grid1.bound 1 = 16 := rfl
abbrev jL (L : grid1.Coords) : Fin 16 := Fin.cast bound_one (L 1)

abbrev semT (d : Dev nD) (c : Fin τ.nSC) (i : Fin τ.nSub) : GSem nD τ sig := (V d c i, .dma cc1_scratch3.sem)
abbrev semI (d : Dev nD) (c : Fin τ.nSC) (i : Fin τ.nSub) : GSem nD τ sig := (V d c i, .dma cc1_scratch4.sem)
abbrev semO (d : Dev nD) (c : Fin τ.nSC) (i : Fin τ.nSub) : GSem nD τ sig := (V d c i, .dma cc1_scoped0.sem)

omit [FloatOps F] in
/-- The subcore's three DMA semaphores are among its own, at zero; and the rest. -/
theorem ownSems0_V :
    (ownSems0 (V d (cV L) (jV L)) : sProp 𝕄)
      = iprop(semVal (semT d (cV L) (jV L)) 0 ∗ semVal (semI d (cV L) (jV L)) 0 ∗ semVal (semO d (cV L) (jV L)) 0
          ∗ bigSep ((((ownCells (V d (cV L) (jV L))).erase (semT d (cV L) (jV L))).erase (semI d (cV L) (jV L))).erase (semO d (cV L) (jV L)))
              fun g => semVal g 0) := by
  unfold SparseCore.Cfg.ownSems0
  rw [SparseCore.bigSep_erase' ((mem_ownCells (g := semT d (cV L) (jV L))).mpr ⟨rfl, by
      show (SemLoc.dma cc1_scratch3.sem : SemLoc sig).isScoped .scVector = true; decide⟩),
    SparseCore.bigSep_erase' (Finset.mem_erase.mpr ⟨by simp [semT, semI]; decide, (mem_ownCells (g := semI d (cV L) (jV L))).mpr ⟨rfl, by
      show (SemLoc.dma cc1_scratch4.sem : SemLoc sig).isScoped .scVector = true; decide⟩⟩),
    SparseCore.bigSep_erase' (Finset.mem_erase.mpr ⟨by simp [semI, semO]; decide, Finset.mem_erase.mpr ⟨by simp [semT, semO]; decide,
      (mem_ownCells (g := semO d (cV L) (jV L))).mpr ⟨rfl, by show (SemLoc.dma cc1_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
/-- The stretch the kernel slices at subcore `L 1` is stretch `L 1` of the sixteen. -/
theorem unit_eq_chunk : Rect.unit (s := S16384) (k1_off1 L) S1024.size (k1_off1_inb L) = chunk (jL L) := by
  unfold chunk Rect.part Rect.block
  have h0 : (L 0).val = 0 := by have := (L 0).isLt; have : grid1.bound 0 = 1 := rfl; omega
  congr 1 <;> funext a
  · rw [k1_off1_eq]
    match a with
    | 0 => simp [Shape.partIx, Shape.partSize, h0]; try omega
  · match a with
    | 0 => simp [Shape.partSize]

omit [FloatOps F] in
theorem set_cSl : (cSl L).view.set = chunkSet (jL L) := by
  show ((cW).view.slice (Rect.unit (s := S16384) (k1_off1 L) S1024.size (k1_off1_inb L))).set = ((cW).view.slice (chunk (jL L))).set
  rw [unit_eq_chunk]
omit [FloatOps F] in
theorem set_oSl : (oSl L).view.set = chunkSet (jL L) := by
  show ((oW).view.slice (Rect.unit (s := S16384) (k1_off1 L) S1024.size (k1_off1_inb L))).set = ((cW).view.slice (chunk (jL L))).set
  rw [unit_eq_chunk]; rfl

omit [FloatOps F] in
theorem pts_cSl (f : Buf (Elt F) (cLoc d)) :
    ((cSl L).view.loc (V d (cV L) (jV L)) ↦[(cSl L).view.set]{fullShare} f : sProp 𝕄) = cLoc d ↦[chunkSet (jL L)]{fullShare} f := by
  rw [set_cSl]
omit [FloatOps F] in
theorem pts_oSl (f : Buf (Elt F) (oLoc d)) :
    ((oSl L).view.loc (V d (cV L) (jV L)) ↦[(oSl L).view.set]{fullShare} f : sProp 𝕄) = oLoc d ↦[chunkSet (jL L)]{fullShare} f := by
  rw [set_oSl]
omit [FloatOps F] in
theorem pts_tW (q : PosShare TreeShare) (f : Buf (Elt F) (tLoc d)) :
    ((tW).view.loc (V d (cV L) (jV L)) ↦{q} f : sProp 𝕄) = tLoc d ↦{q} f := by
  simp only [Memref.view_whole, View.set_whole]
omit [FloatOps F] in
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl
omit [FloatOps F] in
theorem pts_s2 (f : Buf (Elt F) ((V d (cV L) (jV L)).loc cc1_scratch2)) :
    ((s2W).view.loc (V d (cV L) (jV L)) ↦{fullShare} f : sProp 𝕄) = (V d (cV L) (jV L)).loc cc1_scratch2 ↦{fullShare} f := rfl

omit [FloatOps F] in
theorem pts_s0_access (f : Buf (Elt F) ((V d (cV L) (jV L)).loc cc1_scratch0)) :
    (((s0W).access (.whole S1000)).loc (V d (cV L) (jV L)) ↦{fullShare} f : sProp 𝕄) = ((s0W).view.loc (V d (cV L) (jV L)) ↦{fullShare} f : sProp 𝕄) := rfl

/-- The loop's invariant: the two fetched scratch memories as they landed, and the out scratch done up to trip `k`. -/
def inv (k : Nat) (_ : PUnit) : sProp 𝕄 :=
  iprop(∃ g0 g1, ((s0W).view.loc (V d (cV L) (jV L)) ↦{fullShare} g0)
    ∗ ((s1W).view.loc (V d (cV L) (jV L)) ↦{fullShare} g1) ∗ ⌜Landed m d L g0 g1⌝
    ∗ ∃ f2, ((s2W).view.loc (V d (cV L) (jV L)) ↦{fullShare} f2) ∗ ⌜Done g0 g1 k f2⌝)

omit [FloatOps F] in
theorem trips_eq : Scf.trips k1_t1_loop.lb k1_t1_loop.ub k1_t1_loop.st = 64 := by decide

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tTok d (jL L) (tab m d) ∗ cChunk m d (jL L) ∗ ∃ f, oChunk d (jL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L tW (Memref.isWhole_whole _) cW (Memref.isWhole_whole _) oW (Memref.isWhole_whole _)
            s0W (Memref.isWhole_whole _) s1W (Memref.isWhole_whole _) s2W (Memref.isWhole_whole _) cc1_scratch3 cc1_scratch4 cc1_scoped0)
          fun _ => iprop((tTok d (jL L) (tab m d) ∗ cChunk m d (jL L) ∗ oChunk d (jL L) (res m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  iintro ⟨#Hlv, -, ⟨Ht, Hc, %fo, Ho⟩, ⟨⟨%f0, Hs0⟩, ⟨%f1, Hs1⟩, ⟨%f2, Hs2⟩, Hbufs⟩, ⟨HsemT, HsemI, HsemO, Hsems⟩, HO⟩
  ihave Hmw := ((K (F := F)).mayWaits_none (thr := V d (cV L) (jV L)) hO) $$ Hlv
  ihave Ht' := (Entails.of_eq (pts_tW (F := F) d L _ _).symm) $$ Ht
  ihave Hc' := (Entails.of_eq (pts_cSl (F := F) d L _).symm) $$ Hc
  ihave Ho' := (Entails.of_eq (pts_oSl (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the two fetches and their waits
  sl_exec
  sl_for (inv m d L) $$ [Hs0' Hs1' Hs2']
  case region =>
    intro k _
    unfold inv
    iintro ⟨%g0, %g1, Hs0, Hs1, %hland, %g2, Hs2, %hdone⟩
    -- the sixteen words, their check, the pick, the store
    sl_exec
    rw [wp_assume_of _ _ _ _ (chk_of_landed m hpre hland k)]
    ihave Hs0a := (Entails.of_eq (pts_s0_access (F := F) d L _).symm) $$ Hs0
    iapply (SparseCore.wp_vectorLoadIdx 𝒱₀ (V d (cV L) (jV L)) none Set.univ (base := (s0W)) (S := Finset.univ) (q := fullShare) (Finset.subset_univ _)) $$ Hs0a; iintro Hs0a
    ihave Hs0 := (Entails.of_eq (pts_s0_access (F := F) d L _)) $$ Hs0a
    sl_exec
    sl_step
    iexists g0, g1
    isplitl [Hs0]; · iexact Hs0
    isplitl [Hs1]; · iexact Hs1
    isplitr; · ipureintro; exact hland
    iexists _
    isplitl [Hs2]; · iexact Hs2
    ipureintro
    exact done_step g0 g1 g2 k _ (landed_lt m hpre hland) hdone
  · unfold inv
    iexists _, _
    isplitl [Hs0']; · iexact Hs0'
    isplitl [Hs1']; · iexact Hs1'
    isplitr
    · ipureintro
      refine ⟨fun x => ?_, fun x => ?_⟩
      · simp only [Memref.view_whole, View.write_whole_univ]; rfl
      · simp only [Memref.view_whole, View.write_whole_univ]; rfl
    iexists _
    isplitl [Hs2']; · iexact Hs2'
    ipureintro; intro x hx; omega
  iintro %_ HI
  unfold inv
  icases HI with ⟨%g0, %g1, Hs0, Hs1, %hland, %g2, Hs2, %hdone⟩
  -- the copy-out and its wait
  sl_exec
  sl_step
  isplitl [Ht' Hc' Ho']
  · isplitl [Ht']; · iapply (Entails.of_eq (pts_tW (F := F) d L _ _)); iexact Ht'
    isplitl [Hc']; · iapply (Entails.of_eq (pts_cSl (F := F) d L _)); iexact Hc'
    iapply (Entails.of_eq (pts_oSl (F := F) d L _))
    ihave Ho2 := (Entails.of_eq (pointsTo_congr (ℓ := (oSl L).view.loc (V d (cV L) (jV L))) (I := (oSl L).view.set) (q := fullShare)
      (out_eq_res m d L g0 g1 g2 hland (trips_eq ▸ hdone) fo (tile_body.sl.dma0_2 d L g2) (fun _ => rfl)))) $$ Ho'
    iexact Ho2
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HsemT HsemI HsemO Hsems]
  · isplitl [HsemT]; · iexact HsemT
    isplitl [HsemI]; · iexact HsemI
    isplitl [HsemO]; · iexact HsemO
    iexact Hsems
  iexists (insert (SemLoc.dma cc1_scoped0.sem, (default : HIx 1)) (insert (SemLoc.dma cc1_scratch4.sem, (default : HIx 1))
    (insert (SemLoc.dma cc1_scratch3.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          tW (Memref.isWhole_whole _) cW (Memref.isWhole_whole _) oW (Memref.isWhole_whole _)
          s0W (Memref.isWhole_whole _) s1W (Memref.isWhole_whole _) s2W (Memref.isWhole_whole _) cc1_scratch3 cc1_scratch4 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Kernel.Run

end
-- ==== Proof.KernelRegion.lean ====
/-
  The TensorCore's call before the SparseCore's: the logarithm of the table.

  The call has no grid: one point. Its first window is the table `p` (1000 numbers), fetched whole into a staging
  buffer; its second is the table `t`, written back whole from a second staging buffer. At the point the body reads
  the first buffer, reads the second, and stores the entrywise logarithm of what it read in the first into the second.
  So the array behind the second window ends holding the logarithm of the array behind the first, entry by entry, and
  the array behind the first is never written.

  Through the call the TensorCore still owes the SparseCores their start signals: the tallies it owes are the same
  before and after the point, all at the index of a SparseCore call, and the call's own waits (for its two transfers)
  sit at the index of no call, at level zero, below every one of them.
-/
import proofs.«204160_g61692910239824_cont_9to1_m_427_19_alg».proof.Proof.KernelSetup
import Idealize.ShloMosaic.Lib.Pipeline.Regions
import Idealize.ShloMosaic.Lib.Pipeline.FrameBody
import Idealize.ShloMosaic.Lib.Pipeline.Value
import Idealize.ShloMosaic.Lib.Tactic

noncomputable section

namespace Cert.Kernel.Run

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The call as a pipeline without prefetched tables -/

/-- The call prefetches no table: one admissible choice of their contents, the empty one. -/
abbrev adm : (p : Fin 1) → (pcfgs (F := F) p).Adm := fun p => (cfgs p).toPCfg_adm

/-- The two staging buffers' semaphores are two cells. -/
theorem phinj : Function.Injective (Pipeline.cellOf (nD := nD) (τ := τ) (Pipeline.pin (pcfgs (F := F)) adm)) :=
  (launch0.toP (Val := Elt F)).cellOf_inj adm

/-! ## What the body computes -/

/-- The one access of either buffer: all of it. -/
abbrev r0 : Rect S1000 := Rect.unit (s := S1000) ![0] S1000.size inb_S1000_S1000_0

theorem hz0 : (![0] : Fin 1 → Nat) = fun _ => 0 := funext fun a => by fin_cases a; rfl

/-- The second buffer after the body, from what the first holds: its one store, of the logarithm of what the body
    read of the first, over all of it. -/
def out1 (x0 : Vec F S1000 .f32) : Vec F S1000 .f32 :=
  View.canon [⟨r0, k0_pay1 (View.ld x0 r0)⟩]

/-- The store covers the buffer. -/
theorem cover1 (p0 : Vec F S1000 .f32) (y : S1000.Idx) :
    ∃ pc ∈ ([⟨r0, p0⟩] : List (View.Piece (Elt F) S1000 .f32)), y ∈ pc.1.set :=
  View.cover_of_tiled [⟨r0, p0⟩] S1000.size (by rfl) y

/-- It is the logarithm, entry by entry. -/
theorem out1_eq (x0 : Vec F S1000 .f32) : out1 x0 = (log (x0 : FVec F S1000 .f32) : FVec F S1000 .f32) := by
  unfold out1
  rw [View.canon_unit_zero hz0]
  simp only [View.ld_unit_zero (S := S1000) hz0]
  rfl

set_option maxHeartbeats 1000000 in
/-- The body on two whole buffers, the first at `x0` and the second at anything: it leaves the first as it was and the
    second at the logarithm of `x0`. -/
theorem sound_kernel (d : Dev nD) (E : Set ℕ) (arg0 : Memref sig .tc .vmem S1000 .f32) (harg0 : arg0.IsWhole)
    (arg1 : Memref sig .tc .vmem S1000 .f32) (harg1 : arg1.IsWhole) (x0 : Vec F S1000 .f32) (Kc : PUnit → sProp 𝕄) :
    iprop(owns (d : Thread nD τ) arg0 fullShare x0 ∗ (∃ y, owns (d : Thread nD τ) arg1 fullShare y)
        ∗ (iprop(owns (d : Thread nD τ) arg0 fullShare x0 ∗ owns (d : Thread nD τ) arg1 fullShare (out1 x0)) -∗ Kc ⟨⟩))
      ⊢ wp frame (wpE (defs₀ (F := F)) Variants.none d none) E (cc0__log_body arg0 harg0 arg1 harg1) Kc := by
  simp only [cc0__log_body_eq_skeleton]; unfold cc0__log_body_skel
  unfold owns
  iintro ⟨⟨%f0, %hf0, H0⟩, ⟨%y1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-! ## The proof data of the call on device `d` -/

/-- Window `w`'s block at the point, read off the launch memory's array behind the window. -/
def iblk (d : Dev nD) (w : Fin cfg0.W) (t : Fin cfg0.N) : ((cfg0.win w).xblock (cfg0.grid.coords t)).Idx → Elt F (cfg0.win w).elt :=
  ((cfg0.win w).blk t).view.read (Elt F) (m ((d : Thread nD τ).loc (Pipeline.arrRef spec0 w)))

/-- The pairs a wait of the TensorCore may have recorded while it is before SparseCore call 0: those at level zero. -/
abbrev lev0 (d : Dev nD) : Set (SemLoc sig × HIx 1) := {p | (K (F := F)).lev (T d, p.1) p.2 ≤ 8 * 0}

/-- The arrays as launched; after the body the first buffer at the table's block, the second at its logarithm; nothing
    of the call's own in the invariant; the TensorCore owing, before and after the point, the start signals of the
    SparseCore call to come. -/
def dat (d : Dev nD) : Dat τ (Elt F) (HIx 1) ℕ UU ℕ cfg0 d where
  A w := m ((d : Thread nD τ).loc (Pipeline.arrRef spec0 w))
  after w t := match w with
    | ⟨0, _⟩ => iblk m d 0 t
    | ⟨1, _⟩ => out1 (iblk m d 0 t)
  Φ _ := Pipeline.scopedRest spec0 d
  q _ := fullShare
  owed _ := (K (F := F)).Otc d 0
  recorded _ := lev0 (F := F) d

theorem A_eq (d : Dev nD) (w : Fin cfg0.W) : (dat m d).A w = m ((d : Thread nD τ).loc (Pipeline.arrRef spec0 w)) := by
  dsimp only [dat]
theorem after0 (d : Dev nD) (t : Fin cfg0.N) : (dat m d).after 0 t = iblk m d 0 t := by dsimp only [dat]
theorem after1 (d : Dev nD) (t : Fin cfg0.N) : (dat m d).after 1 t = out1 (iblk m d 0 t) := by dsimp only [dat]

/-- The first buffer holds the table's block when the body runs. -/
theorem before0 (d : Dev nD) (t : Fin cfg0.N) (x) : (dat m d).before 0 t x = iblk m d 0 t :=
  ((dat m d).before_in_eq_fetched 0 rfl (fun _ => rfl) (fun _ _ _ => rfl)
      (fun t => by rw [after0]; unfold Dat.blockOf iblk; rw [A_eq]; try rfl) t x).trans
    (by unfold Dat.fetched Dat.blockOf iblk; rw [A_eq]; try rfl)

/-! ## The body obligation -/

def bodyPre (d : Dev nD) (t : Fin cfg0.N) : sProp 𝕄 :=
  iprop((dat m d).Φ t.castSucc ∗ (dat m d).owesAt none t.castSucc
    ∗ (∃ x, owns (d : Thread nD τ) (st0_0 t) fullShare ((dat m d).before 0 t x))
    ∗ (∃ x, owns (d : Thread nD τ) (st0_1 t) fullShare ((dat m d).before 1 t x)))

def bodyPost (d : Dev nD) (t : Fin cfg0.N) : sProp 𝕄 :=
  iprop((dat m d).Φ t.succ ∗ (dat m d).owesAt none t.succ
    ∗ owns (d : Thread nD τ) (st0_0 t) fullShare ((dat m d).after 0 t)
    ∗ owns (d : Thread nD τ) (st0_1 t) fullShare ((dat m d).after 1 t))

/-- The body at the point: the first buffer holds the table's block, so the triple above applies; the invariant and
    what the TensorCore owes pass through unread. -/
theorem sound_body (d : Dev nD) (t : Fin cfg0.N) :
    bodyPre m d t ⊢ wp frame (wpE (defs₀ (F := F)) Variants.none d none) Set.univ (bodyAt0 t) (fun _ => bodyPost m d t) := by
  unfold bodyPre bodyPost bodyAt0
  simp only [before0]
  rw [show (dat m d).Φ t.succ = (dat m d).Φ t.castSucc from rfl,
    show (dat m d).owesAt none t.succ = (dat m d).owesAt none t.castSucc from rfl,
    after0, after1]
  iintro ⟨HΦ, Ho, ⟨%x0, H0⟩, ⟨%x1, H1⟩⟩
  iapply (sound_kernel d Set.univ _ _ _ _ (iblk m d 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (d : Dev nD) : BodyObligation (dat (F := F) m d) (defs₀ (F := F)) Variants.none (none : HIx 1) Set.univ := fun t => by
  rw [bigSep_W0, bigSep_W0]
  exact sound_body m d t

/-! ## What the two arrays hold after the call -/

/-- The call's arrays, each whole at the full share, are the two points-tos. -/
theorem arrays_eq' (d : Dev nD) (Fv : (w : Fin cfg0.W) → Buf (Elt F) ((cfg0.win w).arr.view.loc (d : Thread nD τ))) :
    ((dat m d).arrays Fv : sProp 𝕄) = iprop((pLoc d ↦{fullShare} Fv 0) ∗ (tLoc d ↦{fullShare} Fv 1)) := by
  have h := Pipeline.arrays_eq (Pipeline.pin (pcfgs (F := F)) adm) (fun _ d => dat m d) (0 : Fin 1) d arr_whole0
    (fun w => (dat m d).share_full (fun _ => rfl) w) Fv
  rw [bigSep_W0] at h
  exact h

/-- What the point writes back to the second array is the block of the logarithm table: the logarithm of the first
    array's block, entry by entry, the two blocks being all of their arrays. -/
theorem flushed1_eq (d : Dev nD) (t : Fin cfg0.N) :
    (dat m d).flushed 1 t = ((cfg0.win 1).blk t).view.read (Elt F) (tab m d) := by
  show (cfg0.win 1).cut (grid0.coords t) ((dat m d).after 1 t) = _
  rw [after1, out1_eq]
  rfl

/-- The one block is all of the second array. -/
theorem cover_blk1 (i : S1000.Idx) : ∃ t : Fin cfg0.N, (cfg0.win 1).flush t = true ∧ i ∈ ((cfg0.win 1).blk t).view.set := by
  refine ⟨t0_0, flush0_1 t0_0, ?_⟩
  show i ∈ ((View.whole main_v0).slice (win0_1.rect t0_0)).set
  rw [View.set_slice_whole, Rect.mem_set_unit]
  intro a
  have hi := (i a).isLt
  constructor
  · show 0 * S1000.size a ≤ (i a).val; omega
  · show (i a).val < 0 * S1000.size a + S1000.size a; omega

/-- The first array is never written; -/
theorem arr0_final (d : Dev nD) : (dat m d).arrAt 0 cfg0.N = m (pLoc d) :=
  ((dat m d).arrAt_in 0 rfl _).trans (A_eq m d 0)

/-- the second ends at the table of logarithms. -/
theorem arr1_final (d : Dev nD) : (dat m d).arrAt 1 cfg0.N = tab m d :=
  (dat m d).arrAt_eq_of_cover 1 (tab m d) (fun t _ => flushed1_eq m d t) cover_blk1

theorem arrays_entry (d : Dev nD) :
    ((dat m d).arrays ((dat m d).arrAt · 0) : sProp 𝕄) = iprop(pPts m d ∗ tPts d (m (tLoc d))) := by
  rw [arrays_eq' m d]; rfl

theorem arrays_final (d : Dev nD) :
    ((dat m d).arrays ((dat m d).arrAt · cfg0.N) : sProp 𝕄) = iprop(pPts m d ∗ tPts d (tab m d)) := by
  rw [arrays_eq' m d]
  show iprop((pLoc d ↦{fullShare} (dat m d).arrAt 0 cfg0.N) ∗ (tLoc d ↦{fullShare} (dat m d).arrAt 1 cfg0.N)) = _
  rw [arr0_final, arr1_final]

/-! ## The call as a region of @main -/

/-- What the TensorCore owes before SparseCore call 0 — the start signals of the calls to come — with the pairs its
    waits have recorded all at level zero. -/
abbrev owesTc (d : Dev nD) : sProp 𝕄 :=
  iprop(∃ W, ⌜(K (F := F)).WBelow (T d) W (8 * 0)⌝ ∗ owes (T d) ((K (F := F)).Otc d 0) W)

/-- Everything the TensorCore owes sits at a call's index, above level zero. -/
theorem Otc_pos_lev (d : Dev nD) (g : GSem nD τ sig) (i : HIx 1) (h : 0 < (K (F := F)).Otc d 0 g i) :
    i ∈ (K (F := F)).L g ∧ 0 < (K (F := F)).lev g i :=
  ⟨Finset.mem_univ _, Nat.lt_of_lt_of_le (by decide : 0 < 8 * 0 + 1) (SparseCore.Cfg.lev_of_Otc_pos h)⟩

/-- The call, entered owing the start signals and holding the table and the array of its logarithms, left owing the
    same and holding the table unchanged and the array at the table's logarithms. -/
def region : Pipeline.RegionSeg (pcfgs (F := F)) adm (fun _ d => dat m d) (none : HIx 1) defs₀ 𝒱₀
    (K (F := F)).L (K (F := F)).lev (0 : Fin 1) where
  win := winFacts0.to₀
  block_pos := block_pos0
  stage_whole := stage_whole0
  K := PEmpty
  osem := fun k : PEmpty => k.elim
  ho := Pipeline.OwnSemFacts.none _
  hbody := fun d => (body_obligation m d).loose
  hwaits := fun d => Pipeline.cellsWaits_of_cut (Pipeline.pin (pcfgs (F := F)) adm) (fun _ d => dat m d) (none : HIx 1) (0 : Fin 1) d
    (L := (K (F := F)).L) (lev := (K (F := F)).lev) 0 ((K (F := F)).Otc d 0) (fun _ => rfl)
    (fun _ _ => Finset.mem_univ _) (fun _ _ => Nat.le_refl _) (Otc_pos_lev d)
  pre := fun d => iprop(owesTc (F := F) d ∗ pPts m d ∗ tPts d (m (tLoc d)))
  post := fun d => iprop(owesTc (F := F) d ∗ pPts m d ∗ tPts d (tab m d))
  X := fun _ => iprop(emp)
  Y := fun _ => iprop(emp)
  Z := fun _ => iprop(emp)
  hentry := fun d => by
    rw [arrays_entry m d]
    iintro ⟨⟨⟨%W, %hW, HO⟩, Hp, Ht⟩, -, -⟩
    imodintro
    isplitl [Hp Ht]
    · isplitl [Hp]; · iexact Hp
      iexact Ht
    isplitr
    · unfold Pipeline.prefHeld
      rw [show (Finset.univ : Finset (Fin (pcfgs (F := F) 0).pre.K)) = ∅ from rfl, bigSep_empty]
      iempintro
    isplitl [HO]
    · iexists W; isplitr
      · ipureintro; exact fun p hp => Or.inl (hW p (Finset.mem_coe.mp hp))
      iexact HO
    isplitr <;> iempintro
  hin := fun d => sep_elim_right.trans sep_elim_right
  hout := fun d => by
    show (Pipeline.scopedRest spec0 d : sProp 𝕄) ⊢ _
    iintro H
    isplitr; · iempintro
    isplitr
    · rw [Pipeline.ownSems0_none]; iempintro
    iexact H
  hexit := fun d => by
    rw [arrays_final m d]
    iintro ⟨⟨Hp, Ht⟩, ⟨%W, %hW, HO⟩, -, -⟩
    imodintro
    isplitl [HO]
    · iexists W; isplitr
      · ipureintro
        intro p hp
        rcases hW (Finset.mem_coe.mpr hp) with h | ⟨w, s, rfl⟩
        · exact h
        · exact Nat.le_refl _
      iexact HO
    isplitl [Hp]; · iexact Hp
    iexact Ht

end Cert.Kernel.Run

end
-- ==== Proof.KernelMain.lean ====
/-
  @main on the TensorCore, and the launch element of the ghost state.

  @main is three lines: the TensorCore's call that takes the logarithm of the table `p` into `t`; the SparseCore call,
  which the TensorCore starts, hands `t` (at the logarithms), the index words `c` and the result `o`, and waits for;
  the return. The first call's two transfers complete on two semaphores of the TensorCore's own, each a cell with its
  rounds: the launch element funds their ghost state beside the handshakes', and @main's proof starts from device
  `d`'s part of it. Through the first call the TensorCore owes the SparseCores their start signals, which it pays
  in the second; the first call's waits sit below all of them.
-/
import proofs.«204160_g61692910239824_cont_9to1_m_427_19_alg».proof.Proof.KernelRegion

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state @main starts from, and the launch element -/

/-- Device `d`'s part of the staging cells' ghost state: each of the first call's two cells at its launch state, its
    owner at round 0, that round reached; and the duty token of each of its two transfers. -/
def GG (d : Dev nD) : sProp 𝕄 :=
  iprop(Pipeline.cellsGhost (Pipeline.pin (pcfgs (F := F)) adm) EP (0 : Fin 1) d
    ∗ Pipeline.toksInit (Pipeline.pin (pcfgs (F := F)) adm) EP (0 : Fin 1) d)

/-- The launch element: the handshakes' rounds, the staging cells' rounds, the transfers' counters at nothing. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

/-- The staging cells' rounds are the left factor of the launch element's right factor. -/
theorem own_cells (a : UP) :
    (BI.own ((embR : Emb (UP × Counters) 𝕄) (a, (1 : Counters))) : sProp 𝕄) ⊢ BI.own ((EP : Emb UP 𝕄) a) := by
  unfold EP
  exact (own_pair_emb (embR : Emb (UP × Counters) 𝕄) a (1 : Counters)).trans sep_elim_left

theorem bigSep_emp' {I : Type} (s : Finset I) : (bigSep s fun _ => iprop(emp)) = (iprop(emp) : sProp 𝕄) := bigSep_emp_const s

/-- Of what every device holds for every call of the TensorCore's, its part for the one call there is. -/
theorem pick0 (Φ : Fin 1 → Dev nD → sProp 𝕄) :
    (bigSep Finset.univ fun d : Dev nD => bigSep Finset.univ fun p : Fin 1 => Φ p d) ⊢ bigSep Finset.univ fun d : Dev nD => Φ 0 d :=
  bigSep_mono fun d _ => bigSep_elim (Φ := fun p : Fin 1 => Φ p d) (Finset.mem_univ (0 : Fin 1))

/-- The launch element splits into the handshakes' rounds and the staging cells'; the latter fund every device's
    cells and tokens; no kernel's proof is dealt anything. -/
theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_cells _) $$ HR
  imod (Pipeline.fund_ghost (Pipeline.pin (pcfgs (F := F)) adm) EP phinj) $$ HP with ⟨Hg, Ht⟩
  imodintro
  isplitl [HH]; · iexact HH
  isplitl [Hg Ht]
  · unfold GG
    rw [bigSep_sep']
    isplitl [Hg]
    · iapply (pick0 fun p d => Pipeline.cellsGhost (Pipeline.pin (pcfgs (F := F)) adm) EP p d)
      iexact Hg
    · iapply (pick0 fun p d => Pipeline.toksInit (Pipeline.pin (pcfgs (F := F)) adm) EP p d)
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all four unscoped: `p`, `c`, `t`, `o`. -/
theorem unscopedBufs_eq (d : Dev nD) (W : (b : Ref sig .tc) → Buf (Elt F) ((d.tc : Thread nD τ).loc b)) :
    (unscopedBufs d W : sProp 𝕄) = iprop((pLoc d ↦{fullShare} W main_arg0) ∗ (cLoc d ↦{fullShare} W main_arg1)
      ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the SparseCore call takes for its one SparseCore, and what it hands back. -/
theorem st0_eq (d : Dev nD) : (bigSep Finset.univ fun c : Fin ((K (F := F)).nCore 0) => (P m).st 0 d c)
    = iprop(tPts d (tab m d) ∗ cPts m d ∗ ∃ f, oPts d f) := by
  show (bigSep (Finset.univ : Finset (Fin 1)) fun _ => iprop(tPts d (tab m d) ∗ cPts m d ∗ ∃ f, oPts d f)) = _
  rw [show (Finset.univ : Finset (Fin 1)) = {0} by decide, bigSep_singleton]
theorem dn0_eq (d : Dev nD) : (bigSep Finset.univ fun c : Fin ((K (F := F)).nCore 0) => (P m).dn 0 d c)
    = iprop(tPts d (tab m d) ∗ cPts m d ∗ oPts d (res m d)) := by
  show (bigSep (Finset.univ : Finset (Fin 1)) fun _ => iprop(tPts d (tab m d) ∗ cPts m d ∗ oPts d (res m d))) = _
  rw [show (Finset.univ : Finset (Fin 1)) = {0} by decide, bigSep_singleton]

/-- The first call's two ends. -/
theorem region_pre (d : Dev nD) : (region m).pre d = iprop(owesTc (F := F) d ∗ pPts m d ∗ tPts d (m (tLoc d))) := rfl
theorem region_post (d : Dev nD) : (region m).post d = iprop(owesTc (F := F) d ∗ pPts m d ∗ tPts d (tab m d)) := rfl

/-- Before SparseCore call 0 the TensorCore's state holds what it owes, which the first call borrows and gives back. -/
theorem tcSt_owes (d : Dev nD) :
    ((K (F := F)).tcSt EH d 0 : sProp 𝕄) ⊢ iprop(owesTc (F := F) d ∗ (owesTc (F := F) d -∗ (K (F := F)).tcSt EH d 0)) := by
  unfold SparseCore.Cfg.tcSt
  iintro ⟨HO, Hrest⟩
  isplitl [HO]; · iexact HO
  iintro HO
  isplitl [HO]; · iexact HO
  iexact Hrest

/-- @main on device `d`'s TensorCore: the first call as a region of the pipeline library, entered owing the start
    signals, from `p` and `t` and the staging cells' ghost state, left with `t` at the logarithms; the SparseCore call
    from `t`, `c` and `o`; `p` kept throughout. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes GG
  rw [unscopedBufs_eq]
  simp only [main, wp_bind, wp_pure]
  iintro ⟨#Hctx, Hst, ⟨Hb, ⟨Hp, Hc, Ht, Ho⟩, -, -⟩, Hg, Htk⟩
  ihave Hs := (tcSt_owes d) $$ Hst
  icases Hs with ⟨HO, Hback⟩
  ihave Hlev := (SparseCore.Cfg.ctx_levAts κ) $$ Hctx
  -- the first call: a program of the pipeline library's table, lifted
  iapply ((K (F := F)).wp_liftProg (D (F := F)) 𝒱 (SparseCore.T d) Set.univ none
    (Prog.lift (.customCall (Pipeline.entry (0 : Fin 1)) ())) _)
  iapply (Pipeline.RegionSeg.wp (pcfgs (F := F)) adm (fun _ d => dat m d) (none : HIx 1) phinj EP defs₀ 𝒱₀
    (K (F := F)).L (K (F := F)).lev (region m) d none (fun u h => nomatch h) (fun x => .ret x) _)
  isplitl [Hback Hc Ho]
  · iintro ⟨Hb, Hpost⟩
    ihave Hpost' := (Entails.of_eq (region_post m d)) $$ Hpost
    icases Hpost' with ⟨HO, Hp, Ht⟩
    rw [wp_ret]; imodintro
    ihave Hst := Hback $$ HO
    -- the SparseCore call
    iapply ((K (F := F)).wp_run (D (F := F)) 𝒱 (EH := EH) (P := P m) κ d 0)
    isplitr; · iexact Hctx
    isplitl [Hst]; · iexact Hst
    isplitl [Ht Hc Ho]
    · rw [st0_eq]
      isplitl [Ht]; · iexact Ht
      isplitl [Hc]; · iexact Hc
      iexists _; iexact Ho
    iintro ⟨Hst, Hdn⟩
    ihave Hdn' := (Entails.of_eq (dn0_eq m d)) $$ Hdn
    icases Hdn' with ⟨-, Hc, Ho⟩
    imodintro
    isplitl [Hst]; · iexact Hst
    isplitl [Hp]; · iexact Hp
    isplitl [Hc]; · iexact Hc
    iexact Ho
  isplitl [Hb]; · iexact Hb
  isplitl [HO Hp Ht]
  · rw [region_pre]
    isplitl [HO]; · iexact HO
    isplitl [Hp]; · iexact Hp
    iexact Ht
  isplitl [Hlev]; · iexact Hlev
  isplitl [Hg]; · iexact Hg
  iexact Htk

end Cert.Kernel.Run

end
-- ==== Proof.PreRange.lean ====
/-
  What the precondition says of the index words. The precondition is one bit: the "and" of two "all" tests. The second
  test takes, for every index word, the "and" of "the word is at least 0" and "the word is at most 999", both read as
  signed integers, and then the "and" of all 16384 such bits, starting from 1. When the precondition's bit is 1, both
  tests are 1; an "and" over all entries that is 1 met a 1 at every entry; and an entry's bit is 1 exactly when both of
  its signed comparisons hold. So every index word lies between 0 and 999 as a signed integer.
-/
import proofs.«204160_g61692910239824_cont_9to1_m_427_19_alg».proof.Pre_input_domain
import proofs.«204160_g61692910239824_cont_9to1_m_427_19_alg».proof.Proof.Gen.Pre_input_domain
import proofs.«204160_g61692910239824_cont_9to1_m_427_19_alg».proof.Proof.Spec
import Idealize.ShloMosaic.Lib.ReduceAll

namespace Cert.PreRange

open Idealize.ShloMosaic Idealize.ShloMosaic.ValueIdx

/-- The shape with no axes has exactly one index. -/
instance : Subsingleton Cert.Pre_input_domain.S_.Idx := ⟨fun a b => funext fun d => d.elim0⟩

/-- One entry's bit: the word is at least 0 and at most 999, as signed integers. -/
theorem word_inRange (v : BitVec 32)
    (e : IntOp.andi (IntOp.cmpi .sge v 0#32) (IntOp.cmpi .sle v 999#32) = 1#1) : 0 ≤ v.toInt ∧ v.toInt ≤ 999 := by
  obtain ⟨e1, e2⟩ := IntOp.andi_eq_one.1 e
  have h1 := IntOp.cmpi_sge.1 e1
  have h2 := IntOp.cmpi_sle.1 e2
  rw [show (0#32 : BitVec 32).toInt = 0 from by decide] at h1
  rw [show (999#32 : BitVec 32).toInt = 999 from by decide] at h2
  exact ⟨h1, h2⟩

/-- The precondition's bit being 1 puts every index word between 0 and 999 as a signed integer. -/
theorem inRange_of_pre {F : FTy → Type} [FloatOps F] [Cert.Pre_input_domain.Facts]
    (p : FVec F Cert.Pre_input_domain.S1000 .f32) (c : IVec Cert.Pre_input_domain.S16384 32)
    (h : Cert.Pre_input_domain.fn (F := F) p c = fun _ => 1#1) : Cert.Spec.InRange c := by
  intro j
  have e := congrFun h ValueIdx.ix0
  dsimp only [Cert.Pre_input_domain.fn] at e
  have e9 := (IntOp.andi_eq_one.1 e).2
  have ej := Host.reduce_andi_all _ _ _ _ _ e9 j
  exact word_inRange (c j) ej

end Cert.PreRange
-- ==== Proof.KernelRun.lean ====
/-
  The kernel's run. Every subcore's task is proved, the call's arrays are dealt to the subcores and gathered back, and
  the TensorCore's program is proved from the launch memory; the launch theorem of the SparseCore library puts these
  together: from any memory whose index words all lie between 0 and 999 as signed integers, every weakly fair
  execution of all the threads terminates, and in every final memory the result array holds, for each index word,
  the logarithm of the table's entry at the position the word names, while the table and the index words are as they
  were. The precondition, all ones on every device, says exactly that the index words are in range.
-/
import proofs.«204160_g61692910239824_cont_9to1_m_427_19_alg».proof.Proof.KernelSetup
import proofs.«204160_g61692910239824_cont_9to1_m_427_19_alg».proof.Proof.KernelSplit
import proofs.«204160_g61692910239824_cont_9to1_m_427_19_alg».proof.Proof.KernelTile
import proofs.«204160_g61692910239824_cont_9to1_m_427_19_alg».proof.Proof.KernelMain
import proofs.«204160_g61692910239824_cont_9to1_m_427_19_alg».proof.Proof.PreRange

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The program's run -/

/-- What the final memory of device `d` must read: the table and the index words as launched, the result array at
    the picked logarithms. -/
def fq (d : Dev nD) (s' : Phys nD τ sig (Elt F)) : Prop :=
  s'.mem.mem (pLoc d) = m (pLoc d) ∧ s'.mem.mem (cLoc d) = m (cLoc d) ∧ s'.mem.mem (oLoc d) = res m d

/-- Holding the three arrays whole at those contents, the memory reads them so. -/
theorem hfin (d : Dev nD) (s' : Phys nD τ sig (Elt F)) : iprop(FIN m d ∗ SI s') ⊢ (⌜fq m d s'⌝ : sProp 𝕄) := by
  iintro ⟨⟨Hp, Hc, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The run's post: on every device the result array holds the picked logarithms and both arguments are unchanged. -/
def QC : PUnit × MemSt nD τ sig (Elt F) → Prop := fun r =>
  ∀ c : Dev nD, r.2.mem (oLoc c) = res m c ∧ r.2.mem (pLoc c) = m (pLoc c) ∧ r.2.mem (cLoc c) = m (cLoc c)

/-- From any memory whose index words are all in range, with zero counters: every weakly fair execution of all the
    threads terminates, the result array at the picked logarithms and the arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (GG (F := F)) (FIN m) (u₀ (F := F)) (sep_elim_left.trans (hu₀ m)) (hmain m ρ)
    (fq m) (hfin m) (QC m) (fun _ h c => ⟨(h c).2.2, (h c).1, (h c).2.1⟩)

/-- The precondition, all ones on every device, puts every index word of the launch memory in range. -/
theorem preOK_of_pre [Cert.Pre_input_domain.Facts]
    (h : ∀ c : Dev nD, Cert.Pre_input_domain.fn (F := F) (m ((c.tc : Thread nD τ).loc main_arg0)) (m ((c.tc : Thread nD τ).loc main_arg1)) = fun _ => 1#1) :
    PreOK m :=
  fun d => Cert.PreRange.inRange_of_pre _ _ (h d)

end Cert.Kernel.Run

end
-- ==== Proof.KernelIdealSetup.lean ====
/-
  The kernel's program as the launch theorem of the SparseCore library sees it, and what travels with its handshakes.

  The program: the TensorCore first takes the logarithm of the whole table `p` (1000 numbers) into a second table
  `t`; then sixteen vector subcores of one SparseCore each copy `t` whole and their own 1024 index words of `c`
  into scratch memory, pick the sixteen entries of `t` that sixteen words name, sixty-four times over, and copy
  the 1024 picked entries to their own stretch of the result `o`.

  The call hands the SparseCore `t` (at the table of logarithms), `c` and `o` whole; each vector subcore gets a read
  share of `t`, stretch `i` of `c` and stretch `i` of `o`, and hands back the same with its stretch of `o` holding
  the picked logarithms.
-/
import proofs.«204160_g61692910239824_cont_9to1_m_427_19_alg».proof.KernelIdeal
import proofs.«204160_g61692910239824_cont_9to1_m_427_19_alg».proof.Proof.Gen.KernelIdeal
import proofs.«204160_g61692910239824_cont_9to1_m_427_19_alg».proof.Proof.Gen.KernelIdeal.Skeleton
import proofs.«204160_g61692910239824_cont_9to1_m_427_19_alg».proof.Proof.Gen.KernelIdeal.Launch
import proofs.«204160_g61692910239824_cont_9to1_m_427_19_alg».proof.Proof.Gen.KernelIdeal.Points
import proofs.«204160_g61692910239824_cont_9to1_m_427_19_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore call's staging cells, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore call's staging cells: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The launch memory and the arrays -/

variable (m : (ℓ : Loc nD τ sig) → Buf (Elt F) ℓ) (ρ : Dev nD → PrngReg)

/-- The table `p`, the index words `c`, the table of logarithms `t`, the result `o`, as locations of device `d`. -/
abbrev pLoc (d : Dev nD) : Loc nD τ sig := (SparseCore.T d).loc main_arg0
abbrev cLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

variable [FloatOps F]

/-- The table of logarithms of the launch memory's table. -/
def tab (d : Dev nD) : Buf (Elt F) (tLoc d) := (log (m (pLoc d) : FVec F S1000 .f32) : FVec F S1000 .f32)
/-- The result: the logarithm table's entries picked by the launch memory's index words. -/
def res (d : Dev nD) : Buf (Elt F) (oLoc d) :=
  (Cert.Spec.G (F := F) (m (pLoc d) : FVec F S1000 .f32) (m (cLoc d) : IVec S16384 32) : FVec F S16384 .f32)

theorem hdiv : 16 ∣ S16384.size 0 := ⟨1024, rfl⟩
/-- Stretch `i` of the 16384 positions: the 1024 from `1024 * i` on. -/
abbrev chunk (i : Fin 16) : Rect S16384 := Rect.part (s := S16384) (a₀ := 0) hdiv i
abbrev chunkSet (i : Fin 16) : Finset S16384.Idx := ((Memref.whole main_arg1_scv : Memref sig .scVector .hbm S16384 .i32).view.slice (chunk i)).set

abbrev pPts (d : Dev nD) : sProp 𝕄 := pLoc d ↦{fullShare} m (pLoc d)
abbrev cPts (d : Dev nD) : sProp 𝕄 := cLoc d ↦{fullShare} m (cLoc d)
abbrev tPts (d : Dev nD) (f : Buf (Elt F) (tLoc d)) : sProp 𝕄 := tLoc d ↦{fullShare} f
abbrev oPts (d : Dev nD) (f : Buf (Elt F) (oLoc d)) : sProp 𝕄 := oLoc d ↦{fullShare} f
/-- Vector subcore `i`'s read share of `t`, its stretch of `c`, its stretch of `o`. -/
abbrev tTok (d : Dev nD) (i : Fin 16) (f : Buf (Elt F) (tLoc d)) : sProp 𝕄 := tLoc d ↦{Transfers.shareTok fullShare 16 i} f
abbrev cChunk (d : Dev nD) (i : Fin 16) : sProp 𝕄 := cLoc d ↦[chunkSet i]{fullShare} m (cLoc d)
abbrev oChunk (d : Dev nD) (i : Fin 16) (f : Buf (Elt F) (oLoc d)) : sProp 𝕄 := oLoc d ↦[chunkSet i]{fullShare} f

/-! ## What the handshakes carry -/

def P : (K (F := F)).Pay (nD := nD) (Val := Elt F) (Name := ℕ) (U := UU) where
  st := fun _ d _ => iprop(tPts d (tab m d) ∗ cPts m d ∗ ∃ f, oPts d f)
  dn := fun _ d _ => iprop(tPts d (tab m d) ∗ cPts m d ∗ oPts d (res m d))
  go := fun q d _ i => match q with
    | 0 => iprop(tTok d (Fin.cast nSub_zero i) (tab m d) ∗ cChunk m d (Fin.cast nSub_zero i) ∗ ∃ f, oChunk d (Fin.cast nSub_zero i) f)
  td := fun q d _ i => match q with
    | 0 => iprop(tTok d (Fin.cast nSub_zero i) (tab m d) ∗ cChunk m d (Fin.cast nSub_zero i) ∗ oChunk d (Fin.cast nSub_zero i) (res m d))
  x := fun _ _ => iprop(emp)

instance P_storable : (P (F := F) m).IsStorable where
  st _ d _ := by unfold P; infer_instance
  dn _ d _ := by unfold P; infer_instance
  go q d _ i := match q with
    | 0 => (inferInstance : BI.Storable (upEmb : UEmb _ 𝕄)
        iprop(tTok d (Fin.cast nSub_zero i) (tab m d) ∗ cChunk m d (Fin.cast nSub_zero i) ∗ ∃ f, oChunk d (Fin.cast nSub_zero i) f))
  td q d _ i := match q with
    | 0 => (inferInstance : BI.Storable (upEmb : UEmb _ 𝕄)
        iprop(tTok d (Fin.cast nSub_zero i) (tab m d) ∗ cChunk m d (Fin.cast nSub_zero i) ∗ oChunk d (Fin.cast nSub_zero i) (res m d)))

theorem P_st (q : Fin 1) (d : Dev nD) (c : Fin ((K (F := F)).nCore q)) :
    (P (F := F) m).st q d c = iprop(tPts d (tab m d) ∗ cPts m d ∗ ∃ f, oPts d f) := rfl
theorem P_dn (q : Fin 1) (d : Dev nD) (c : Fin ((K (F := F)).nCore q)) :
    (P (F := F) m).dn q d c = iprop(tPts d (tab m d) ∗ cPts m d ∗ oPts d (res m d)) := rfl

/-- What @main leaves the claim: `p` and `c` at their launch contents, `o` at the result. -/
abbrev FIN (d : Dev nD) : sProp 𝕄 := iprop(pPts m d ∗ cPts m d ∗ oPts d (res m d))

end Cert.KernelIdeal.Run

end
-- ==== Proof.KernelIdealSplit.lean ====
/-
  How the call's arrays are dealt to the sixteen vector subcores and gathered back.

  The table of logarithms is read whole by every subcore, so each gets a read share of it (sixteen shares split
  off the full share, the remainder kept aside until the shares come back). The index words and the result are cut
  into sixteen stretches of 1024 positions, pairwise disjoint and together everything; subcore `i` gets stretch `i`
  of each. When every subcore hands back its stretch of the result holding the result's entries, the stretches join
  to the whole result.
-/
import proofs.«204160_g61692910239824_cont_9to1_m_427_19_alg».proof.Proof.KernelIdealSetup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem chunkSet_eq (i : Fin 16) : chunkSet i = (chunk i).set := by
  show ((View.whole (main_arg1_scv : Ref sig .scVector)).slice (chunk i)).set = _
  rw [View.set_slice]; exact Finset.map_refl
theorem chunks_disjoint : ∀ i ∈ (Finset.univ : Finset (Fin 16)), ∀ j ∈ (Finset.univ : Finset (Fin 16)), i ≠ j → Disjoint (chunkSet i) (chunkSet j) :=
  fun i _ j _ h => by rw [chunkSet_eq, chunkSet_eq]; exact Rect.part_disjoint hdiv h
theorem chunks_cover : (Finset.univ : Finset (Fin 16)).biUnion chunkSet = Finset.univ :=
  (Finset.biUnion_congr rfl fun i _ => chunkSet_eq i).trans (Rect.biUnion_part hdiv)

theorem cPts_chunks (d : Dev nD) (f : Buf (Elt F) (cLoc d)) :
    (cLoc d ↦{fullShare} f : sProp 𝕄) = bigSep Finset.univ fun i : Fin 16 => cLoc d ↦[chunkSet i]{fullShare} f := by
  rw [← pointsTo_biUnion Finset.univ (ℓ := cLoc d) chunkSet chunks_disjoint, chunks_cover]; try rfl
theorem oPts_chunks (d : Dev nD) (f : Buf (Elt F) (oLoc d)) :
    (oLoc d ↦{fullShare} f : sProp 𝕄) = bigSep Finset.univ fun i : Fin 16 => oLoc d ↦[chunkSet i]{fullShare} f := by
  rw [← pointsTo_biUnion Finset.univ (ℓ := oLoc d) chunkSet chunks_disjoint, chunks_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem vecSplit : (K (F := F)).VecSplit' (P m) 0 := by
  intro d c
  show iprop(tPts d (tab m d) ∗ cPts m d ∗ ∃ f, oPts d f) ⊢ |={Set.univ}=> iprop(
      (bigSep Finset.univ fun i : Fin ((K (F := F)).nSub 0) =>
        iprop(tTok d (Fin.cast nSub_zero i) (tab m d) ∗ cChunk m d (Fin.cast nSub_zero i) ∗ ∃ f, oChunk d (Fin.cast nSub_zero i) f))
      ∗ ((bigSep Finset.univ fun i : Fin ((K (F := F)).nSub 0) =>
          iprop(tTok d (Fin.cast nSub_zero i) (tab m d) ∗ cChunk m d (Fin.cast nSub_zero i) ∗ oChunk d (Fin.cast nSub_zero i) (res m d)))
          -∗ iprop(tPts d (tab m d) ∗ cPts m d ∗ oPts d (res m d))))
  rw [bigSep_tasks (F := F) (fun i => iprop(tTok d i (tab m d) ∗ cChunk m d i ∗ ∃ f, oChunk d i f)),
    bigSep_tasks (F := F) (fun i => iprop(tTok d i (tab m d) ∗ cChunk m d i ∗ oChunk d i (res m d))), bigSep_sep', bigSep_sep', bigSep_sep', bigSep_sep']
  unfold tPts cPts oPts cChunk oChunk tTok
  rw [cPts_chunks, oPts_chunks (F := F) d (res m d)]
  iintro ⟨Ht, Hc, %f, Ho⟩
  ihave Ht' := (Transfers.pointsTo_toks (ℓ := tLoc d) (S := Finset.univ) (f := tab m d) fullShare 16).1 $$ Ht
  icases Ht' with ⟨Hdrop, Htoks⟩
  ihave Ho' := (Entails.of_eq (oPts_chunks (F := F) d f)) $$ Ho
  imodintro
  isplitl [Htoks Hc Ho']
  · isplitl [Htoks]; · iexact Htoks
    isplitl [Hc]; · iexact Hc
    have hex : (bigSep Finset.univ fun i : Fin 16 => (oLoc d ↦[chunkSet i]{fullShare} f : sProp 𝕄))
        ⊢ bigSep Finset.univ fun i : Fin 16 => (iprop(∃ g, oLoc d ↦[chunkSet i]{fullShare} g) : sProp 𝕄) :=
      bigSep_mono fun i _ => exists_intro (Φ := fun g => (oLoc d ↦[chunkSet i]{fullShare} g : sProp 𝕄)) f
    iapply hex
    iexact Ho'
  iintro ⟨Htoks, Hc, Ho⟩
  isplitl [Hdrop Htoks]
  · iapply (Transfers.pointsTo_toks (ℓ := tLoc d) (S := Finset.univ) (f := tab m d) fullShare 16).2
    isplitl [Hdrop]; · iexact Hdrop
    iexact Htoks
  isplitl [Hc]; · iexact Hc
  iexact Ho

end Cert.KernelIdeal.Run

end
-- ==== Proof.KernelIdealTileValue.lean ====
/-
  The arithmetic of one vector subcore's work, apart from the program's run.

  The subcore holds the whole table of logarithms `g0` and its 1024 index words `g1` in scratch memory. Trip `k` of
  its loop reads the sixteen words at positions `16 k … 16 k + 15`, picks the table's entries they name, and stores
  them at the same sixteen positions of the out scratch. So before trip `k` the first `16 k` entries of the out
  scratch are the picked entries (`Done`), one trip extends that by sixteen (`done_step`), and after the 64 trips
  the whole out scratch is picked; copied to the subcore's stretch of the result it makes that stretch the result's
  (`out_eq_res`), because position `x` of the stretch of subcore `j` is position `1024 j + x` of the whole.
-/
import proofs.«204160_g61692910239824_cont_9to1_m_427_19_alg».proof.Proof.KernelIdealSetup

noncomputable section

namespace Cert.KernelIdeal.Run

open Cert.KernelIdeal Cert.KernelIdeal.Gen

open Idealize.ShloMosaic Idealize.ShloMosaic.ValueIdx
open Idealize.ShloMosaic.SparseCore (S V T)
open Idealize.SL Idealize.SL.Sem

variable {F : FTy → Type}

variable (m : (ℓ : Loc nD τ sig) → Buf (Elt F) ℓ)

local notation "cW" => (Memref.whole Cert.KernelIdeal.main_arg1_scv : Memref Cert.KernelIdeal.sig Kind.scVector Space.hbm Cert.KernelIdeal.S16384 EltTy.i32)
local notation "oW" => (Memref.whole Cert.KernelIdeal.main_v1_scv : Memref Cert.KernelIdeal.sig Kind.scVector Space.hbm Cert.KernelIdeal.S16384 EltTy.f32)
local notation "s0W" => (Memref.whole Cert.KernelIdeal.cc1_scratch0 : Memref Cert.KernelIdeal.sig Kind.scVector Space.vmem Cert.KernelIdeal.S1000 EltTy.f32)
local notation "s1W" => (Memref.whole Cert.KernelIdeal.cc1_scratch1 : Memref Cert.KernelIdeal.sig Kind.scVector Space.vmem Cert.KernelIdeal.S1024 EltTy.i32)
local notation "s2W" => (Memref.whole Cert.KernelIdeal.cc1_scratch2 : Memref Cert.KernelIdeal.sig Kind.scVector Space.vmem Cert.KernelIdeal.S1024 EltTy.f32)

/-- The subcore's stretch of the index words and of the result, as the kernel slices them. -/
abbrev cSl (L : grid1.Coords) : Memref sig .scVector .hbm S1024 .i32 :=
  (cW).slice (Rect.unit (s := S16384) (k1_off1 L) S1024.size (k1_off1_inb L)) (fun _ => rfl)
abbrev oSl (L : grid1.Coords) : Memref sig .scVector .hbm S1024 .f32 :=
  (oW).slice (Rect.unit (s := S16384) (k1_off1 L) S1024.size (k1_off1_inb L)) (fun _ => rfl)

/-- Every index word of the launch memory is between 0 and 999 as a signed integer. -/
def PreOK : Prop := ∀ d : Dev nD, Cert.Spec.InRange (m (cLoc d) : IVec S16384 32)

variable [FloatOps F]

/-- What the two fetches leave in the scratch memories: the whole table of logarithms, and the subcore's stretch of
    the index words. -/
def Landed (d : Dev nD) (L : grid1.Coords) (g0 : Vec F S1000 .f32) (g1 : Vec F S1024 .i32) : Prop :=
  (∀ x, g0 x = (tab m d : Vec F S1000 .f32) x) ∧ (∀ x, g1 x = (m (cLoc d) : Vec F S16384 .i32) ((cSl L).view.emb x))

/-- Before trip `k` the first `16 * k` entries of the out scratch are the picked entries. -/
def Done (g0 : Vec F S1000 .f32) (g1 : Vec F S1024 .i32) (k : Nat) (f2 : Vec F S1024 .f32) : Prop :=
  ∀ x : S1024.Idx, (x 0).val < 16 * k → f2 x = g0 (Cert.Spec.pos (g1 x))

/-- The fetched words are words of the launch memory, so in range. -/
theorem landed_lt {d : Dev nD} {L : grid1.Coords} {g0 : Vec F S1000 .f32} {g1 : Vec F S1024 .i32} (hpre : PreOK m) (h : Landed m d L g0 g1)
    (x : S1024.Idx) : (g1 x).toNat < 1000 := by
  rw [h.2]; exact Cert.Spec.toNat_lt (hpre d) _

/-- The check the kernel makes of the sixteen words trip `k` loaded: each names a table position. -/
theorem chk_of_landed {d : Dev nD} {L : grid1.Coords} {g0 : Vec F S1000 .f32} {g1 : Vec F S1024 .i32} (hpre : PreOK m) (h : Landed m d L g0 g1)
    (k : Fin k1_t1_loop.trips) :
    k1_chk1 (View.readAt (Elt F) (s1W).view (Rect.unit (s := S1024) (k1_off2 k) S16.size (k1_off2_inb k)).toLoadRect g1) := by
  intro a x
  obtain rfl : a = 0 := Subsingleton.elim _ _
  show (View.readAt (Elt F) (s1W).view (Rect.unit (s := S1024) (k1_off2 k) S16.size (k1_off2_inb k)).toLoadRect g1 x).toNat < 1000
  simp only [View.readAt_apply, Memref.view_whole, View.read_whole]
  exact landed_lt m hpre h _

omit [FloatOps F] in
/-- One trip: the sixteen picked entries stored at positions `16 k … 16 k + 15` extend the done prefix. -/
theorem done_step (g0 : Vec F S1000 .f32) (g1 : Vec F S1024 .i32) (g2 : Vec F S1024 .f32) (k : Fin k1_t1_loop.trips)
    (hin : ∀ a x, ((![View.readAt (Elt F) (s1W).view (Rect.unit (s := S1024) (k1_off2 k) S16.size (k1_off2_inb k)).toLoadRect g1] : Fin 1 → IVec S16 32) a x).toNat < S1000.size a)
    (hr : ∀ x, (g1 x).toNat < 1000) (hdone : Done g0 g1 k.val g2) :
    Done g0 g1 (k.val + 1) ((s2W).view.writes (Elt F) g2
      [⟨Rect.unit (s := S1024) (k1_off3 k) S16.size (k1_off3_inb k),
        loadIdx (View.read (Elt F) ((s0W).access (Rect.whole S1000)) g0)
          ![View.readAt (Elt F) (s1W).view (Rect.unit (s := S1024) (k1_off2 k) S16.size (k1_off2_inb k)).toLoadRect g1] hin⟩]) := by
  intro x hx
  rw [View.writes_singleton]
  by_cases hlt : (x 0).val < 16 * k.val
  · refine (View.write_of_not_mem (v := (s2W).view.slice (Rect.unit (s := S1024) (k1_off3 k) S16.size (k1_off3_inb k))) (Val := Elt F)
      g2 _ Finset.univ (i := x) ?_).trans (hdone x hlt)
    · rw [View.setOn_univ]
      show x ∉ ((View.whole (cc1_scratch2 : Ref sig .scVector)).slice (Rect.unit (s := S1024) (k1_off3 k) S16.size (k1_off3_inb k))).set
      rw [View.set_slice_whole, Rect.mem_set_unit]
      intro h
      have h0 := h 0
      rw [k1_off3_eq] at h0
      simp only [Matrix.cons_val_zero] at h0
      omega
  · have hk : k.val < 64 := lt_of_lt_of_le k.isLt k1_t1_abs.2.1
    have hx0 : (x 0).val - 16 * k.val < 16 := by omega
    let y : S16.Idx := ix1 ⟨(x 0).val - 16 * k.val, hx0⟩
    have hxy : (Rect.unit (s := S1024) (k1_off3 k) S16.size (k1_off3_inb k)).emb y = x := by
      funext a
      obtain rfl : a = 0 := Subsingleton.elim _ _
      apply Fin.ext
      have e3 : k1_off3 k 0 = 16 * k.val := congrFun (k1_off3_eq k) 0
      show k1_off3 k 0 + 1 * ((x 0).val - 16 * k.val) = (x 0).val
      omega
    have hxy2 : (Rect.unit (s := S1024) (k1_off2 k) S16.size (k1_off2_inb k)).toLoadRect.idx y = x := by
      funext a
      obtain rfl : a = 0 := Subsingleton.elim _ _
      apply Fin.ext
      have e2 : k1_off2 k 0 = 16 * k.val := congrFun (k1_off2_eq k) 0
      show k1_off2 k 0 + 1 * ((x 0).val - 16 * k.val) = (x 0).val
      omega
    have hemb : ((View.whole (cc1_scratch2 : Ref sig .scVector)).slice (Rect.unit (s := S1024) (k1_off3 k) S16.size (k1_off3_inb k))).emb y = x := hxy
    conv_lhs => rw [← hemb]
    rw [View.write_emb_of_mem _ _ (Finset.mem_univ y)]
    show loadIdx (View.read (Elt F) ((s0W).access (Rect.whole S1000)) g0)
          ![View.readAt (Elt F) (s1W).view (Rect.unit (s := S1024) (k1_off2 k) S16.size (k1_off2_inb k)).toLoadRect g1] hin y = _
    unfold loadIdx
    rw [View.read_apply]
    show g0 _ = g0 _
    refine congrArg g0 (funext fun (a : Fin 1) => ?_)
    obtain rfl : a = 0 := Subsingleton.elim _ _
    apply Fin.ext
    show 0 + 1 * (View.readAt (Elt F) (s1W).view (Rect.unit (s := S1024) (k1_off2 k) S16.size (k1_off2_inb k)).toLoadRect g1 y).toNat = min (g1 x).toNat 999
    rw [View.readAt_apply, hxy2]
    show 0 + 1 * (g1 x).toNat = _
    have := hr x
    omega

/-- After the 64 trips the out scratch holds all 1024 picked entries; copied whole onto the subcore's stretch of the
    result it makes every position of that stretch the result's entry there: position `x` of the stretch is a position
    `i` of the whole array, the word fetched for `x` is the launch memory's word at `i`, and the fetched table is the
    table of logarithms. -/
theorem out_eq_res (d : Dev nD) (L : grid1.Coords) (g0 : Vec F S1000 .f32) (g1 : Vec F S1024 .i32) (g2 : Vec F S1024 .f32)
    (hland : Landed m d L g0 g1) (hdone : Done g0 g1 64 g2) (fo : Buf (Elt F) (oLoc d)) (w : S1024.Idx → Elt F .f32) (hw : ∀ x, w x = g2 x) :
    ∀ i ∈ (oSl L).view.set, (oSl L).view.writes (Elt F) fo [⟨Rect.whole S1024, w⟩] i = res m d i := by
  intro i hi
  obtain ⟨x, -, rfl⟩ := Finset.mem_map.mp hi
  rw [View.writes_singleton]
  have hwx : (Rect.whole S1024).emb x = x := by
    funext a
    obtain rfl : a = 0 := Subsingleton.elim _ _
    apply Fin.ext
    show 0 + 1 * (x 0).val = (x 0).val
    omega
  have he : ((oSl L).view.slice (Rect.whole S1024)).emb x = (oSl L).view.emb x := by
    show (oSl L).view.emb ((Rect.whole S1024).emb x) = _
    rw [hwx]
  rw [← he, View.write_emb_of_mem _ _ (Finset.mem_univ x)]
  show w x = _
  have hx : (x 0).val < 16 * 64 := (x 0).isLt
  rw [hw, hdone x hx, hland.1, hland.2, he]
  rfl

end Cert.KernelIdeal.Run

end
-- ==== Proof.KernelIdealTile.lean ====
/-
  One vector subcore's task, run: it fetches the whole table of logarithms and its own 1024 index words into
  scratch memory (two copies, each waited for), then sixty-four times loads sixteen words, checks that each names a
  table position (true because every index word of the launch memory is between 0 and 999), picks the table's
  entries they name and stores them in the out scratch; finally it copies the out scratch to its own stretch of the
  result and waits for that copy. The stretch then holds the result's entries (the arithmetic is in the module of
  the subcore's values); the table's read share and the stretch of the index words come back unchanged.
-/
import proofs.«204160_g61692910239824_cont_9to1_m_427_19_alg».proof.Proof.KernelIdealTileValue

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.KernelIdeal.main_v0_scv : Memref Cert.KernelIdeal.sig Kind.scVector Space.hbm Cert.KernelIdeal.S1000 EltTy.f32)
local notation "cW" => (Memref.whole Cert.KernelIdeal.main_arg1_scv : Memref Cert.KernelIdeal.sig Kind.scVector Space.hbm Cert.KernelIdeal.S16384 EltTy.i32)
local notation "oW" => (Memref.whole Cert.KernelIdeal.main_v1_scv : Memref Cert.KernelIdeal.sig Kind.scVector Space.hbm Cert.KernelIdeal.S16384 EltTy.f32)
local notation "s0W" => (Memref.whole Cert.KernelIdeal.cc1_scratch0 : Memref Cert.KernelIdeal.sig Kind.scVector Space.vmem Cert.KernelIdeal.S1000 EltTy.f32)
local notation "s1W" => (Memref.whole Cert.KernelIdeal.cc1_scratch1 : Memref Cert.KernelIdeal.sig Kind.scVector Space.vmem Cert.KernelIdeal.S1024 EltTy.i32)
local notation "s2W" => (Memref.whole Cert.KernelIdeal.cc1_scratch2 : Memref Cert.KernelIdeal.sig Kind.scVector Space.vmem Cert.KernelIdeal.S1024 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_one : grid1.bound 1 = 16 := rfl
abbrev jL (L : grid1.Coords) : Fin 16 := Fin.cast bound_one (L 1)

abbrev semT (d : Dev nD) (c : Fin τ.nSC) (i : Fin τ.nSub) : GSem nD τ sig := (V d c i, .dma cc1_scratch3.sem)
abbrev semI (d : Dev nD) (c : Fin τ.nSC) (i : Fin τ.nSub) : GSem nD τ sig := (V d c i, .dma cc1_scratch4.sem)
abbrev semO (d : Dev nD) (c : Fin τ.nSC) (i : Fin τ.nSub) : GSem nD τ sig := (V d c i, .dma cc1_scoped0.sem)

omit [FloatOps F] in
/-- The subcore's three DMA semaphores are among its own, at zero; and the rest. -/
theorem ownSems0_V :
    (ownSems0 (V d (cV L) (jV L)) : sProp 𝕄)
      = iprop(semVal (semT d (cV L) (jV L)) 0 ∗ semVal (semI d (cV L) (jV L)) 0 ∗ semVal (semO d (cV L) (jV L)) 0
          ∗ bigSep ((((ownCells (V d (cV L) (jV L))).erase (semT d (cV L) (jV L))).erase (semI d (cV L) (jV L))).erase (semO d (cV L) (jV L)))
              fun g => semVal g 0) := by
  unfold SparseCore.Cfg.ownSems0
  rw [SparseCore.bigSep_erase' ((mem_ownCells (g := semT d (cV L) (jV L))).mpr ⟨rfl, by
      show (SemLoc.dma cc1_scratch3.sem : SemLoc sig).isScoped .scVector = true; decide⟩),
    SparseCore.bigSep_erase' (Finset.mem_erase.mpr ⟨by simp [semT, semI]; decide, (mem_ownCells (g := semI d (cV L) (jV L))).mpr ⟨rfl, by
      show (SemLoc.dma cc1_scratch4.sem : SemLoc sig).isScoped .scVector = true; decide⟩⟩),
    SparseCore.bigSep_erase' (Finset.mem_erase.mpr ⟨by simp [semI, semO]; decide, Finset.mem_erase.mpr ⟨by simp [semT, semO]; decide,
      (mem_ownCells (g := semO d (cV L) (jV L))).mpr ⟨rfl, by show (SemLoc.dma cc1_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
/-- The stretch the kernel slices at subcore `L 1` is stretch `L 1` of the sixteen. -/
theorem unit_eq_chunk : Rect.unit (s := S16384) (k1_off1 L) S1024.size (k1_off1_inb L) = chunk (jL L) := by
  unfold chunk Rect.part Rect.block
  have h0 : (L 0).val = 0 := by have := (L 0).isLt; have : grid1.bound 0 = 1 := rfl; omega
  congr 1 <;> funext a
  · rw [k1_off1_eq]
    match a with
    | 0 => simp [Shape.partIx, Shape.partSize, h0]; try omega
  · match a with
    | 0 => simp [Shape.partSize]

omit [FloatOps F] in
theorem set_cSl : (cSl L).view.set = chunkSet (jL L) := by
  show ((cW).view.slice (Rect.unit (s := S16384) (k1_off1 L) S1024.size (k1_off1_inb L))).set = ((cW).view.slice (chunk (jL L))).set
  rw [unit_eq_chunk]
omit [FloatOps F] in
theorem set_oSl : (oSl L).view.set = chunkSet (jL L) := by
  show ((oW).view.slice (Rect.unit (s := S16384) (k1_off1 L) S1024.size (k1_off1_inb L))).set = ((cW).view.slice (chunk (jL L))).set
  rw [unit_eq_chunk]; rfl

omit [FloatOps F] in
theorem pts_cSl (f : Buf (Elt F) (cLoc d)) :
    ((cSl L).view.loc (V d (cV L) (jV L)) ↦[(cSl L).view.set]{fullShare} f : sProp 𝕄) = cLoc d ↦[chunkSet (jL L)]{fullShare} f := by
  rw [set_cSl]
omit [FloatOps F] in
theorem pts_oSl (f : Buf (Elt F) (oLoc d)) :
    ((oSl L).view.loc (V d (cV L) (jV L)) ↦[(oSl L).view.set]{fullShare} f : sProp 𝕄) = oLoc d ↦[chunkSet (jL L)]{fullShare} f := by
  rw [set_oSl]
omit [FloatOps F] in
theorem pts_tW (q : PosShare TreeShare) (f : Buf (Elt F) (tLoc d)) :
    ((tW).view.loc (V d (cV L) (jV L)) ↦{q} f : sProp 𝕄) = tLoc d ↦{q} f := by
  simp only [Memref.view_whole, View.set_whole]
omit [FloatOps F] in
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl
omit [FloatOps F] in
theorem pts_s2 (f : Buf (Elt F) ((V d (cV L) (jV L)).loc cc1_scratch2)) :
    ((s2W).view.loc (V d (cV L) (jV L)) ↦{fullShare} f : sProp 𝕄) = (V d (cV L) (jV L)).loc cc1_scratch2 ↦{fullShare} f := rfl

omit [FloatOps F] in
theorem pts_s0_access (f : Buf (Elt F) ((V d (cV L) (jV L)).loc cc1_scratch0)) :
    (((s0W).access (.whole S1000)).loc (V d (cV L) (jV L)) ↦{fullShare} f : sProp 𝕄) = ((s0W).view.loc (V d (cV L) (jV L)) ↦{fullShare} f : sProp 𝕄) := rfl

/-- The loop's invariant: the two fetched scratch memories as they landed, and the out scratch done up to trip `k`. -/
def inv (k : Nat) (_ : PUnit) : sProp 𝕄 :=
  iprop(∃ g0 g1, ((s0W).view.loc (V d (cV L) (jV L)) ↦{fullShare} g0)
    ∗ ((s1W).view.loc (V d (cV L) (jV L)) ↦{fullShare} g1) ∗ ⌜Landed m d L g0 g1⌝
    ∗ ∃ f2, ((s2W).view.loc (V d (cV L) (jV L)) ↦{fullShare} f2) ∗ ⌜Done g0 g1 k f2⌝)

omit [FloatOps F] in
theorem trips_eq : Scf.trips k1_t1_loop.lb k1_t1_loop.ub k1_t1_loop.st = 64 := by decide

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tTok d (jL L) (tab m d) ∗ cChunk m d (jL L) ∗ ∃ f, oChunk d (jL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L tW (Memref.isWhole_whole _) cW (Memref.isWhole_whole _) oW (Memref.isWhole_whole _)
            s0W (Memref.isWhole_whole _) s1W (Memref.isWhole_whole _) s2W (Memref.isWhole_whole _) cc1_scratch3 cc1_scratch4 cc1_scoped0)
          fun _ => iprop((tTok d (jL L) (tab m d) ∗ cChunk m d (jL L) ∗ oChunk d (jL L) (res m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  iintro ⟨#Hlv, -, ⟨Ht, Hc, %fo, Ho⟩, ⟨⟨%f0, Hs0⟩, ⟨%f1, Hs1⟩, ⟨%f2, Hs2⟩, Hbufs⟩, ⟨HsemT, HsemI, HsemO, Hsems⟩, HO⟩
  ihave Hmw := ((K (F := F)).mayWaits_none (thr := V d (cV L) (jV L)) hO) $$ Hlv
  ihave Ht' := (Entails.of_eq (pts_tW (F := F) d L _ _).symm) $$ Ht
  ihave Hc' := (Entails.of_eq (pts_cSl (F := F) d L _).symm) $$ Hc
  ihave Ho' := (Entails.of_eq (pts_oSl (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the two fetches and their waits
  sl_exec
  sl_for (inv m d L) $$ [Hs0' Hs1' Hs2']
  case region =>
    intro k _
    unfold inv
    iintro ⟨%g0, %g1, Hs0, Hs1, %hland, %g2, Hs2, %hdone⟩
    -- the sixteen words, their check, the pick, the store
    sl_exec
    rw [wp_assume_of _ _ _ _ (chk_of_landed m hpre hland k)]
    ihave Hs0a := (Entails.of_eq (pts_s0_access (F := F) d L _).symm) $$ Hs0
    iapply (SparseCore.wp_vectorLoadIdx 𝒱₀ (V d (cV L) (jV L)) none Set.univ (base := (s0W)) (S := Finset.univ) (q := fullShare) (Finset.subset_univ _)) $$ Hs0a; iintro Hs0a
    ihave Hs0 := (Entails.of_eq (pts_s0_access (F := F) d L _)) $$ Hs0a
    sl_exec
    sl_step
    iexists g0, g1
    isplitl [Hs0]; · iexact Hs0
    isplitl [Hs1]; · iexact Hs1
    isplitr; · ipureintro; exact hland
    iexists _
    isplitl [Hs2]; · iexact Hs2
    ipureintro
    exact done_step g0 g1 g2 k _ (landed_lt m hpre hland) hdone
  · unfold inv
    iexists _, _
    isplitl [Hs0']; · iexact Hs0'
    isplitl [Hs1']; · iexact Hs1'
    isplitr
    · ipureintro
      refine ⟨fun x => ?_, fun x => ?_⟩
      · simp only [Memref.view_whole, View.write_whole_univ]; rfl
      · simp only [Memref.view_whole, View.write_whole_univ]; rfl
    iexists _
    isplitl [Hs2']; · iexact Hs2'
    ipureintro; intro x hx; omega
  iintro %_ HI
  unfold inv
  icases HI with ⟨%g0, %g1, Hs0, Hs1, %hland, %g2, Hs2, %hdone⟩
  -- the copy-out and its wait
  sl_exec
  sl_step
  isplitl [Ht' Hc' Ho']
  · isplitl [Ht']; · iapply (Entails.of_eq (pts_tW (F := F) d L _ _)); iexact Ht'
    isplitl [Hc']; · iapply (Entails.of_eq (pts_cSl (F := F) d L _)); iexact Hc'
    iapply (Entails.of_eq (pts_oSl (F := F) d L _))
    ihave Ho2 := (Entails.of_eq (pointsTo_congr (ℓ := (oSl L).view.loc (V d (cV L) (jV L))) (I := (oSl L).view.set) (q := fullShare)
      (out_eq_res m d L g0 g1 g2 hland (trips_eq ▸ hdone) fo (tile_body.sl.dma0_2 d L g2) (fun _ => rfl)))) $$ Ho'
    iexact Ho2
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HsemT HsemI HsemO Hsems]
  · isplitl [HsemT]; · iexact HsemT
    isplitl [HsemI]; · iexact HsemI
    isplitl [HsemO]; · iexact HsemO
    iexact Hsems
  iexists (insert (SemLoc.dma cc1_scoped0.sem, (default : HIx 1)) (insert (SemLoc.dma cc1_scratch4.sem, (default : HIx 1))
    (insert (SemLoc.dma cc1_scratch3.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          tW (Memref.isWhole_whole _) cW (Memref.isWhole_whole _) oW (Memref.isWhole_whole _)
          s0W (Memref.isWhole_whole _) s1W (Memref.isWhole_whole _) s2W (Memref.isWhole_whole _) cc1_scratch3 cc1_scratch4 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.KernelIdeal.Run

end
-- ==== Proof.KernelIdealRegion.lean ====
/-
  The TensorCore's call before the SparseCore's: the logarithm of the table.

  The call has no grid: one point. Its first window is the table `p` (1000 numbers), fetched whole into a staging
  buffer; its second is the table `t`, written back whole from a second staging buffer. At the point the body reads
  the first buffer, reads the second, and stores the entrywise logarithm of what it read in the first into the second.
  So the array behind the second window ends holding the logarithm of the array behind the first, entry by entry, and
  the array behind the first is never written.

  Through the call the TensorCore still owes the SparseCores their start signals: the tallies it owes are the same
  before and after the point, all at the index of a SparseCore call, and the call's own waits (for its two transfers)
  sit at the index of no call, at level zero, below every one of them.
-/
import proofs.«204160_g61692910239824_cont_9to1_m_427_19_alg».proof.Proof.KernelIdealSetup
import Idealize.ShloMosaic.Lib.Pipeline.Regions
import Idealize.ShloMosaic.Lib.Pipeline.FrameBody
import Idealize.ShloMosaic.Lib.Pipeline.Value
import Idealize.ShloMosaic.Lib.Tactic

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The call as a pipeline without prefetched tables -/

/-- The call prefetches no table: one admissible choice of their contents, the empty one. -/
abbrev adm : (p : Fin 1) → (pcfgs (F := F) p).Adm := fun p => (cfgs p).toPCfg_adm

/-- The two staging buffers' semaphores are two cells. -/
theorem phinj : Function.Injective (Pipeline.cellOf (nD := nD) (τ := τ) (Pipeline.pin (pcfgs (F := F)) adm)) :=
  (launch0.toP (Val := Elt F)).cellOf_inj adm

/-! ## What the body computes -/

/-- The one access of either buffer: all of it. -/
abbrev r0 : Rect S1000 := Rect.unit (s := S1000) ![0] S1000.size inb_S1000_S1000_0

theorem hz0 : (![0] : Fin 1 → Nat) = fun _ => 0 := funext fun a => by fin_cases a; rfl

/-- The second buffer after the body, from what the first holds: its one store, of the logarithm of what the body
    read of the first, over all of it. -/
def out1 (x0 : Vec F S1000 .f32) : Vec F S1000 .f32 :=
  View.canon [⟨r0, k0_pay1 (View.ld x0 r0)⟩]

/-- The store covers the buffer. -/
theorem cover1 (p0 : Vec F S1000 .f32) (y : S1000.Idx) :
    ∃ pc ∈ ([⟨r0, p0⟩] : List (View.Piece (Elt F) S1000 .f32)), y ∈ pc.1.set :=
  View.cover_of_tiled [⟨r0, p0⟩] S1000.size (by rfl) y

/-- It is the logarithm, entry by entry. -/
theorem out1_eq (x0 : Vec F S1000 .f32) : out1 x0 = (log (x0 : FVec F S1000 .f32) : FVec F S1000 .f32) := by
  unfold out1
  rw [View.canon_unit_zero hz0]
  simp only [View.ld_unit_zero (S := S1000) hz0]
  rfl

set_option maxHeartbeats 1000000 in
/-- The body on two whole buffers, the first at `x0` and the second at anything: it leaves the first as it was and the
    second at the logarithm of `x0`. -/
theorem sound_kernel (d : Dev nD) (E : Set ℕ) (arg0 : Memref sig .tc .vmem S1000 .f32) (harg0 : arg0.IsWhole)
    (arg1 : Memref sig .tc .vmem S1000 .f32) (harg1 : arg1.IsWhole) (x0 : Vec F S1000 .f32) (Kc : PUnit → sProp 𝕄) :
    iprop(owns (d : Thread nD τ) arg0 fullShare x0 ∗ (∃ y, owns (d : Thread nD τ) arg1 fullShare y)
        ∗ (iprop(owns (d : Thread nD τ) arg0 fullShare x0 ∗ owns (d : Thread nD τ) arg1 fullShare (out1 x0)) -∗ Kc ⟨⟩))
      ⊢ wp frame (wpE (defs₀ (F := F)) Variants.none d none) E (cc0__log_body arg0 harg0 arg1 harg1) Kc := by
  simp only [cc0__log_body_eq_skeleton]; unfold cc0__log_body_skel
  unfold owns
  iintro ⟨⟨%f0, %hf0, H0⟩, ⟨%y1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-! ## The proof data of the call on device `d` -/

/-- Window `w`'s block at the point, read off the launch memory's array behind the window. -/
def iblk (d : Dev nD) (w : Fin cfg0.W) (t : Fin cfg0.N) : ((cfg0.win w).xblock (cfg0.grid.coords t)).Idx → Elt F (cfg0.win w).elt :=
  ((cfg0.win w).blk t).view.read (Elt F) (m ((d : Thread nD τ).loc (Pipeline.arrRef spec0 w)))

/-- The pairs a wait of the TensorCore may have recorded while it is before SparseCore call 0: those at level zero. -/
abbrev lev0 (d : Dev nD) : Set (SemLoc sig × HIx 1) := {p | (K (F := F)).lev (T d, p.1) p.2 ≤ 8 * 0}

/-- The arrays as launched; after the body the first buffer at the table's block, the second at its logarithm; nothing
    of the call's own in the invariant; the TensorCore owing, before and after the point, the start signals of the
    SparseCore call to come. -/
def dat (d : Dev nD) : Dat τ (Elt F) (HIx 1) ℕ UU ℕ cfg0 d where
  A w := m ((d : Thread nD τ).loc (Pipeline.arrRef spec0 w))
  after w t := match w with
    | ⟨0, _⟩ => iblk m d 0 t
    | ⟨1, _⟩ => out1 (iblk m d 0 t)
  Φ _ := Pipeline.scopedRest spec0 d
  q _ := fullShare
  owed _ := (K (F := F)).Otc d 0
  recorded _ := lev0 (F := F) d

theorem A_eq (d : Dev nD) (w : Fin cfg0.W) : (dat m d).A w = m ((d : Thread nD τ).loc (Pipeline.arrRef spec0 w)) := by
  dsimp only [dat]
theorem after0 (d : Dev nD) (t : Fin cfg0.N) : (dat m d).after 0 t = iblk m d 0 t := by dsimp only [dat]
theorem after1 (d : Dev nD) (t : Fin cfg0.N) : (dat m d).after 1 t = out1 (iblk m d 0 t) := by dsimp only [dat]

/-- The first buffer holds the table's block when the body runs. -/
theorem before0 (d : Dev nD) (t : Fin cfg0.N) (x) : (dat m d).before 0 t x = iblk m d 0 t :=
  ((dat m d).before_in_eq_fetched 0 rfl (fun _ => rfl) (fun _ _ _ => rfl)
      (fun t => by rw [after0]; unfold Dat.blockOf iblk; rw [A_eq]; try rfl) t x).trans
    (by unfold Dat.fetched Dat.blockOf iblk; rw [A_eq]; try rfl)

/-! ## The body obligation -/

def bodyPre (d : Dev nD) (t : Fin cfg0.N) : sProp 𝕄 :=
  iprop((dat m d).Φ t.castSucc ∗ (dat m d).owesAt none t.castSucc
    ∗ (∃ x, owns (d : Thread nD τ) (st0_0 t) fullShare ((dat m d).before 0 t x))
    ∗ (∃ x, owns (d : Thread nD τ) (st0_1 t) fullShare ((dat m d).before 1 t x)))

def bodyPost (d : Dev nD) (t : Fin cfg0.N) : sProp 𝕄 :=
  iprop((dat m d).Φ t.succ ∗ (dat m d).owesAt none t.succ
    ∗ owns (d : Thread nD τ) (st0_0 t) fullShare ((dat m d).after 0 t)
    ∗ owns (d : Thread nD τ) (st0_1 t) fullShare ((dat m d).after 1 t))

/-- The body at the point: the first buffer holds the table's block, so the triple above applies; the invariant and
    what the TensorCore owes pass through unread. -/
theorem sound_body (d : Dev nD) (t : Fin cfg0.N) :
    bodyPre m d t ⊢ wp frame (wpE (defs₀ (F := F)) Variants.none d none) Set.univ (bodyAt0 t) (fun _ => bodyPost m d t) := by
  unfold bodyPre bodyPost bodyAt0
  simp only [before0]
  rw [show (dat m d).Φ t.succ = (dat m d).Φ t.castSucc from rfl,
    show (dat m d).owesAt none t.succ = (dat m d).owesAt none t.castSucc from rfl,
    after0, after1]
  iintro ⟨HΦ, Ho, ⟨%x0, H0⟩, ⟨%x1, H1⟩⟩
  iapply (sound_kernel d Set.univ _ _ _ _ (iblk m d 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (d : Dev nD) : BodyObligation (dat (F := F) m d) (defs₀ (F := F)) Variants.none (none : HIx 1) Set.univ := fun t => by
  rw [bigSep_W0, bigSep_W0]
  exact sound_body m d t

/-! ## What the two arrays hold after the call -/

/-- The call's arrays, each whole at the full share, are the two points-tos. -/
theorem arrays_eq' (d : Dev nD) (Fv : (w : Fin cfg0.W) → Buf (Elt F) ((cfg0.win w).arr.view.loc (d : Thread nD τ))) :
    ((dat m d).arrays Fv : sProp 𝕄) = iprop((pLoc d ↦{fullShare} Fv 0) ∗ (tLoc d ↦{fullShare} Fv 1)) := by
  have h := Pipeline.arrays_eq (Pipeline.pin (pcfgs (F := F)) adm) (fun _ d => dat m d) (0 : Fin 1) d arr_whole0
    (fun w => (dat m d).share_full (fun _ => rfl) w) Fv
  rw [bigSep_W0] at h
  exact h

/-- What the point writes back to the second array is the block of the logarithm table: the logarithm of the first
    array's block, entry by entry, the two blocks being all of their arrays. -/
theorem flushed1_eq (d : Dev nD) (t : Fin cfg0.N) :
    (dat m d).flushed 1 t = ((cfg0.win 1).blk t).view.read (Elt F) (tab m d) := by
  show (cfg0.win 1).cut (grid0.coords t) ((dat m d).after 1 t) = _
  rw [after1, out1_eq]
  rfl

/-- The one block is all of the second array. -/
theorem cover_blk1 (i : S1000.Idx) : ∃ t : Fin cfg0.N, (cfg0.win 1).flush t = true ∧ i ∈ ((cfg0.win 1).blk t).view.set := by
  refine ⟨t0_0, flush0_1 t0_0, ?_⟩
  show i ∈ ((View.whole main_v0).slice (win0_1.rect t0_0)).set
  rw [View.set_slice_whole, Rect.mem_set_unit]
  intro a
  have hi := (i a).isLt
  constructor
  · show 0 * S1000.size a ≤ (i a).val; omega
  · show (i a).val < 0 * S1000.size a + S1000.size a; omega

/-- The first array is never written; -/
theorem arr0_final (d : Dev nD) : (dat m d).arrAt 0 cfg0.N = m (pLoc d) :=
  ((dat m d).arrAt_in 0 rfl _).trans (A_eq m d 0)

/-- the second ends at the table of logarithms. -/
theorem arr1_final (d : Dev nD) : (dat m d).arrAt 1 cfg0.N = tab m d :=
  (dat m d).arrAt_eq_of_cover 1 (tab m d) (fun t _ => flushed1_eq m d t) cover_blk1

theorem arrays_entry (d : Dev nD) :
    ((dat m d).arrays ((dat m d).arrAt · 0) : sProp 𝕄) = iprop(pPts m d ∗ tPts d (m (tLoc d))) := by
  rw [arrays_eq' m d]; rfl

theorem arrays_final (d : Dev nD) :
    ((dat m d).arrays ((dat m d).arrAt · cfg0.N) : sProp 𝕄) = iprop(pPts m d ∗ tPts d (tab m d)) := by
  rw [arrays_eq' m d]
  show iprop((pLoc d ↦{fullShare} (dat m d).arrAt 0 cfg0.N) ∗ (tLoc d ↦{fullShare} (dat m d).arrAt 1 cfg0.N)) = _
  rw [arr0_final, arr1_final]

/-! ## The call as a region of @main -/

/-- What the TensorCore owes before SparseCore call 0 — the start signals of the calls to come — with the pairs its
    waits have recorded all at level zero. -/
abbrev owesTc (d : Dev nD) : sProp 𝕄 :=
  iprop(∃ W, ⌜(K (F := F)).WBelow (T d) W (8 * 0)⌝ ∗ owes (T d) ((K (F := F)).Otc d 0) W)

/-- Everything the TensorCore owes sits at a call's index, above level zero. -/
theorem Otc_pos_lev (d : Dev nD) (g : GSem nD τ sig) (i : HIx 1) (h : 0 < (K (F := F)).Otc d 0 g i) :
    i ∈ (K (F := F)).L g ∧ 0 < (K (F := F)).lev g i :=
  ⟨Finset.mem_univ _, Nat.lt_of_lt_of_le (by decide : 0 < 8 * 0 + 1) (SparseCore.Cfg.lev_of_Otc_pos h)⟩

/-- The call, entered owing the start signals and holding the table and the array of its logarithms, left owing the
    same and holding the table unchanged and the array at the table's logarithms. -/
def region : Pipeline.RegionSeg (pcfgs (F := F)) adm (fun _ d => dat m d) (none : HIx 1) defs₀ 𝒱₀
    (K (F := F)).L (K (F := F)).lev (0 : Fin 1) where
  win := winFacts0.to₀
  block_pos := block_pos0
  stage_whole := stage_whole0
  K := PEmpty
  osem := fun k : PEmpty => k.elim
  ho := Pipeline.OwnSemFacts.none _
  hbody := fun d => (body_obligation m d).loose
  hwaits := fun d => Pipeline.cellsWaits_of_cut (Pipeline.pin (pcfgs (F := F)) adm) (fun _ d => dat m d) (none : HIx 1) (0 : Fin 1) d
    (L := (K (F := F)).L) (lev := (K (F := F)).lev) 0 ((K (F := F)).Otc d 0) (fun _ => rfl)
    (fun _ _ => Finset.mem_univ _) (fun _ _ => Nat.le_refl _) (Otc_pos_lev d)
  pre := fun d => iprop(owesTc (F := F) d ∗ pPts m d ∗ tPts d (m (tLoc d)))
  post := fun d => iprop(owesTc (F := F) d ∗ pPts m d ∗ tPts d (tab m d))
  X := fun _ => iprop(emp)
  Y := fun _ => iprop(emp)
  Z := fun _ => iprop(emp)
  hentry := fun d => by
    rw [arrays_entry m d]
    iintro ⟨⟨⟨%W, %hW, HO⟩, Hp, Ht⟩, -, -⟩
    imodintro
    isplitl [Hp Ht]
    · isplitl [Hp]; · iexact Hp
      iexact Ht
    isplitr
    · unfold Pipeline.prefHeld
      rw [show (Finset.univ : Finset (Fin (pcfgs (F := F) 0).pre.K)) = ∅ from rfl, bigSep_empty]
      iempintro
    isplitl [HO]
    · iexists W; isplitr
      · ipureintro; exact fun p hp => Or.inl (hW p (Finset.mem_coe.mp hp))
      iexact HO
    isplitr <;> iempintro
  hin := fun d => sep_elim_right.trans sep_elim_right
  hout := fun d => by
    show (Pipeline.scopedRest spec0 d : sProp 𝕄) ⊢ _
    iintro H
    isplitr; · iempintro
    isplitr
    · rw [Pipeline.ownSems0_none]; iempintro
    iexact H
  hexit := fun d => by
    rw [arrays_final m d]
    iintro ⟨⟨Hp, Ht⟩, ⟨%W, %hW, HO⟩, -, -⟩
    imodintro
    isplitl [HO]
    · iexists W; isplitr
      · ipureintro
        intro p hp
        rcases hW (Finset.mem_coe.mpr hp) with h | ⟨w, s, rfl⟩
        · exact h
        · exact Nat.le_refl _
      iexact HO
    isplitl [Hp]; · iexact Hp
    iexact Ht

end Cert.KernelIdeal.Run

end
-- ==== Proof.KernelIdealMain.lean ====
/-
  @main on the TensorCore, and the launch element of the ghost state.

  @main is three lines: the TensorCore's call that takes the logarithm of the table `p` into `t`; the SparseCore call,
  which the TensorCore starts, hands `t` (at the logarithms), the index words `c` and the result `o`, and waits for;
  the return. The first call's two transfers complete on two semaphores of the TensorCore's own, each a cell with its
  rounds: the launch element funds their ghost state beside the handshakes', and @main's proof starts from device
  `d`'s part of it. Through the first call the TensorCore owes the SparseCores their start signals, which it pays
  in the second; the first call's waits sit below all of them.
-/
import proofs.«204160_g61692910239824_cont_9to1_m_427_19_alg».proof.Proof.KernelIdealRegion

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state @main starts from, and the launch element -/

/-- Device `d`'s part of the staging cells' ghost state: each of the first call's two cells at its launch state, its
    owner at round 0, that round reached; and the duty token of each of its two transfers. -/
def GG (d : Dev nD) : sProp 𝕄 :=
  iprop(Pipeline.cellsGhost (Pipeline.pin (pcfgs (F := F)) adm) EP (0 : Fin 1) d
    ∗ Pipeline.toksInit (Pipeline.pin (pcfgs (F := F)) adm) EP (0 : Fin 1) d)

/-- The launch element: the handshakes' rounds, the staging cells' rounds, the transfers' counters at nothing. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

/-- The staging cells' rounds are the left factor of the launch element's right factor. -/
theorem own_cells (a : UP) :
    (BI.own ((embR : Emb (UP × Counters) 𝕄) (a, (1 : Counters))) : sProp 𝕄) ⊢ BI.own ((EP : Emb UP 𝕄) a) := by
  unfold EP
  exact (own_pair_emb (embR : Emb (UP × Counters) 𝕄) a (1 : Counters)).trans sep_elim_left

theorem bigSep_emp' {I : Type} (s : Finset I) : (bigSep s fun _ => iprop(emp)) = (iprop(emp) : sProp 𝕄) := bigSep_emp_const s

/-- Of what every device holds for every call of the TensorCore's, its part for the one call there is. -/
theorem pick0 (Φ : Fin 1 → Dev nD → sProp 𝕄) :
    (bigSep Finset.univ fun d : Dev nD => bigSep Finset.univ fun p : Fin 1 => Φ p d) ⊢ bigSep Finset.univ fun d : Dev nD => Φ 0 d :=
  bigSep_mono fun d _ => bigSep_elim (Φ := fun p : Fin 1 => Φ p d) (Finset.mem_univ (0 : Fin 1))

/-- The launch element splits into the handshakes' rounds and the staging cells'; the latter fund every device's
    cells and tokens; no kernel's proof is dealt anything. -/
theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_cells _) $$ HR
  imod (Pipeline.fund_ghost (Pipeline.pin (pcfgs (F := F)) adm) EP phinj) $$ HP with ⟨Hg, Ht⟩
  imodintro
  isplitl [HH]; · iexact HH
  isplitl [Hg Ht]
  · unfold GG
    rw [bigSep_sep']
    isplitl [Hg]
    · iapply (pick0 fun p d => Pipeline.cellsGhost (Pipeline.pin (pcfgs (F := F)) adm) EP p d)
      iexact Hg
    · iapply (pick0 fun p d => Pipeline.toksInit (Pipeline.pin (pcfgs (F := F)) adm) EP p d)
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all four unscoped: `p`, `c`, `t`, `o`. -/
theorem unscopedBufs_eq (d : Dev nD) (W : (b : Ref sig .tc) → Buf (Elt F) ((d.tc : Thread nD τ).loc b)) :
    (unscopedBufs d W : sProp 𝕄) = iprop((pLoc d ↦{fullShare} W main_arg0) ∗ (cLoc d ↦{fullShare} W main_arg1)
      ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the SparseCore call takes for its one SparseCore, and what it hands back. -/
theorem st0_eq (d : Dev nD) : (bigSep Finset.univ fun c : Fin ((K (F := F)).nCore 0) => (P m).st 0 d c)
    = iprop(tPts d (tab m d) ∗ cPts m d ∗ ∃ f, oPts d f) := by
  show (bigSep (Finset.univ : Finset (Fin 1)) fun _ => iprop(tPts d (tab m d) ∗ cPts m d ∗ ∃ f, oPts d f)) = _
  rw [show (Finset.univ : Finset (Fin 1)) = {0} by decide, bigSep_singleton]
theorem dn0_eq (d : Dev nD) : (bigSep Finset.univ fun c : Fin ((K (F := F)).nCore 0) => (P m).dn 0 d c)
    = iprop(tPts d (tab m d) ∗ cPts m d ∗ oPts d (res m d)) := by
  show (bigSep (Finset.univ : Finset (Fin 1)) fun _ => iprop(tPts d (tab m d) ∗ cPts m d ∗ oPts d (res m d))) = _
  rw [show (Finset.univ : Finset (Fin 1)) = {0} by decide, bigSep_singleton]

/-- The first call's two ends. -/
theorem region_pre (d : Dev nD) : (region m).pre d = iprop(owesTc (F := F) d ∗ pPts m d ∗ tPts d (m (tLoc d))) := rfl
theorem region_post (d : Dev nD) : (region m).post d = iprop(owesTc (F := F) d ∗ pPts m d ∗ tPts d (tab m d)) := rfl

/-- Before SparseCore call 0 the TensorCore's state holds what it owes, which the first call borrows and gives back. -/
theorem tcSt_owes (d : Dev nD) :
    ((K (F := F)).tcSt EH d 0 : sProp 𝕄) ⊢ iprop(owesTc (F := F) d ∗ (owesTc (F := F) d -∗ (K (F := F)).tcSt EH d 0)) := by
  unfold SparseCore.Cfg.tcSt
  iintro ⟨HO, Hrest⟩
  isplitl [HO]; · iexact HO
  iintro HO
  isplitl [HO]; · iexact HO
  iexact Hrest

/-- @main on device `d`'s TensorCore: the first call as a region of the pipeline library, entered owing the start
    signals, from `p` and `t` and the staging cells' ghost state, left with `t` at the logarithms; the SparseCore call
    from `t`, `c` and `o`; `p` kept throughout. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes GG
  rw [unscopedBufs_eq]
  simp only [main, wp_bind, wp_pure]
  iintro ⟨#Hctx, Hst, ⟨Hb, ⟨Hp, Hc, Ht, Ho⟩, -, -⟩, Hg, Htk⟩
  ihave Hs := (tcSt_owes d) $$ Hst
  icases Hs with ⟨HO, Hback⟩
  ihave Hlev := (SparseCore.Cfg.ctx_levAts κ) $$ Hctx
  -- the first call: a program of the pipeline library's table, lifted
  iapply ((K (F := F)).wp_liftProg (D (F := F)) 𝒱 (SparseCore.T d) Set.univ none
    (Prog.lift (.customCall (Pipeline.entry (0 : Fin 1)) ())) _)
  iapply (Pipeline.RegionSeg.wp (pcfgs (F := F)) adm (fun _ d => dat m d) (none : HIx 1) phinj EP defs₀ 𝒱₀
    (K (F := F)).L (K (F := F)).lev (region m) d none (fun u h => nomatch h) (fun x => .ret x) _)
  isplitl [Hback Hc Ho]
  · iintro ⟨Hb, Hpost⟩
    ihave Hpost' := (Entails.of_eq (region_post m d)) $$ Hpost
    icases Hpost' with ⟨HO, Hp, Ht⟩
    rw [wp_ret]; imodintro
    ihave Hst := Hback $$ HO
    -- the SparseCore call
    iapply ((K (F := F)).wp_run (D (F := F)) 𝒱 (EH := EH) (P := P m) κ d 0)
    isplitr; · iexact Hctx
    isplitl [Hst]; · iexact Hst
    isplitl [Ht Hc Ho]
    · rw [st0_eq]
      isplitl [Ht]; · iexact Ht
      isplitl [Hc]; · iexact Hc
      iexists _; iexact Ho
    iintro ⟨Hst, Hdn⟩
    ihave Hdn' := (Entails.of_eq (dn0_eq m d)) $$ Hdn
    icases Hdn' with ⟨-, Hc, Ho⟩
    imodintro
    isplitl [Hst]; · iexact Hst
    isplitl [Hp]; · iexact Hp
    isplitl [Hc]; · iexact Hc
    iexact Ho
  isplitl [Hb]; · iexact Hb
  isplitl [HO Hp Ht]
  · rw [region_pre]
    isplitl [HO]; · iexact HO
    isplitl [Hp]; · iexact Hp
    iexact Ht
  isplitl [Hlev]; · iexact Hlev
  isplitl [Hg]; · iexact Hg
  iexact Htk

end Cert.KernelIdeal.Run

end
-- ==== Proof.KernelIdealRun.lean ====
/-
  The kernel's run. Every subcore's task is proved, the call's arrays are dealt to the subcores and gathered back, and
  the TensorCore's program is proved from the launch memory; the launch theorem of the SparseCore library puts these
  together: from any memory whose index words all lie between 0 and 999 as signed integers, every weakly fair
  execution of all the threads terminates, and in every final memory the result array holds, for each index word,
  the logarithm of the table's entry at the position the word names, while the table and the index words are as they
  were. The precondition, all ones on every device, says exactly that the index words are in range.
-/
import proofs.«204160_g61692910239824_cont_9to1_m_427_19_alg».proof.Proof.KernelIdealSetup
import proofs.«204160_g61692910239824_cont_9to1_m_427_19_alg».proof.Proof.KernelIdealSplit
import proofs.«204160_g61692910239824_cont_9to1_m_427_19_alg».proof.Proof.KernelIdealTile
import proofs.«204160_g61692910239824_cont_9to1_m_427_19_alg».proof.Proof.KernelIdealMain
import proofs.«204160_g61692910239824_cont_9to1_m_427_19_alg».proof.Proof.PreRange

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The program's run -/

/-- What the final memory of device `d` must read: the table and the index words as launched, the result array at
    the picked logarithms. -/
def fq (d : Dev nD) (s' : Phys nD τ sig (Elt F)) : Prop :=
  s'.mem.mem (pLoc d) = m (pLoc d) ∧ s'.mem.mem (cLoc d) = m (cLoc d) ∧ s'.mem.mem (oLoc d) = res m d

/-- Holding the three arrays whole at those contents, the memory reads them so. -/
theorem hfin (d : Dev nD) (s' : Phys nD τ sig (Elt F)) : iprop(FIN m d ∗ SI s') ⊢ (⌜fq m d s'⌝ : sProp 𝕄) := by
  iintro ⟨⟨Hp, Hc, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The run's post: on every device the result array holds the picked logarithms and both arguments are unchanged. -/
def QC : PUnit × MemSt nD τ sig (Elt F) → Prop := fun r =>
  ∀ c : Dev nD, r.2.mem (oLoc c) = res m c ∧ r.2.mem (pLoc c) = m (pLoc c) ∧ r.2.mem (cLoc c) = m (cLoc c)

/-- From any memory whose index words are all in range, with zero counters: every weakly fair execution of all the
    threads terminates, the result array at the picked logarithms and the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (GG (F := F)) (FIN m) (u₀ (F := F)) (sep_elim_left.trans (hu₀ m)) (hmain m ρ)
    (fq m) (hfin m) (QC m) (fun _ h c => ⟨(h c).2.2, (h c).1, (h c).2.1⟩)

/-- The precondition, all ones on every device, puts every index word of the launch memory in range. -/
theorem preOK_of_pre [Cert.Pre_input_domain.Facts]
    (h : ∀ c : Dev nD, Cert.Pre_input_domain.fn (F := F) (m ((c.tc : Thread nD τ).loc main_arg0)) (m ((c.tc : Thread nD τ).loc main_arg1)) = fun _ => 1#1) :
    PreOK m :=
  fun d => Cert.PreRange.inRange_of_pre _ _ (h d)

end Cert.KernelIdeal.Run

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.RefOps.lean ====
/-
  The reference program's run. The reference takes the table `p` (1000 numbers) and the index words `c` (16384 words).
  Its first function replaces a negative word by the word plus 1000, lays the words out as a column, tests each against
  the bounds 0 and 999, gathers the table's entry at the word clamped into [0, 999], and keeps the gathered entry where
  the word passed the test and a fill value elsewhere; the program then takes the logarithm of each kept entry. Written
  as one straight line of its twenty-three operations, every execution ends with the result buffer at the operations'
  composed term of the two arguments, `refTerm p c`, and the arguments unchanged.
-/
import proofs.«204160_g61692910239824_cont_9to1_m_427_19_alg».proof.ReferenceIdeal
import proofs.«204160_g61692910239824_cont_9to1_m_427_19_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the two calls unfolded: the first function's six operations up to the
    choice between the word and the word plus 1000, that choice (the second function's one operation), the
    first function's remaining fifteen, and the logarithm. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0) main_call0.v5 main_call0.v13 (fun x i => Host.gather gather_S1000_S16384x1_S16384_n_0_n_n_0_1_1 x i),
    TRef.nullary main_call0.cst (constant S_ .f32 0x7FC00000#32),
    TRef.unary main_call0.cst main_call0.v14 (broadcastInDim S16384 ![] bcast_S_S16384),
    TRef.ternary main_call0.v12 main_call0.v13 main_call0.v14 main_call0.v15 select,
    unary main_v0 main_v1 (Host.log : (⟨S16384, .f32⟩ : BufTy).Contents (Elt F) → (⟨S16384, .f32⟩ : BufTy).Contents (Elt F)) ]

set_option maxRecDepth 1024 in
/-- The program is that straight line: the two functions' definitions unfolded at their calls, both sides are one
    chain of steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub ..⟩

/-- The index words as the program reads them: a negative word is replaced by the word plus 1000. -/
def wrapped (c : IVec S16384 32) : IVec S16384 32 :=
  select (cmpi .slt c (broadcastInDim S16384 ![] bcast_S_S16384 (constantI S_ 32 0#32)))
    (addi c (broadcastInDim S16384 ![] bcast_S_S16384 (constantI S_ 32 1000#32))) c

/-- The words laid out as a column. -/
def column (c : IVec S16384 32) : IVec S16384x1 32 :=
  broadcastInDim S16384x1 ![0] bcast_S16384_S16384x1_0 (wrapped c)

/-- The test of each word against the bounds 0 and 999, as signed integers. -/
def mask (c : IVec S16384 32) : IVec S16384 1 :=
  Host.reduce IntOp.andi
    (andi (cmpi .sge (column c) (broadcastInDim S16384x1 ![] bcast_S_S16384x1 (constantI S_ 32 0#32)))
      (cmpi .sle (column c) (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- The operations' composed term: the logarithm of the gathered entry where the word passed the test, of the fill
    value elsewhere. -/
def refTerm (p : FVec F S1000 .f32) (c : IVec S16384 32) : FVec F S16384 .f32 :=
  Host.log (select (mask c) (Host.gather gather_S1000_S16384x1_S16384_n_0_n_n_0_1_1 p (column c))
    (broadcastInDim S16384 ![] bcast_S_S16384 (constant S_ .f32 0x7FC00000#32)))

attribute [local irreducible] Host.reduce Host.gather in
set_option maxRecDepth 8192 in
/-- After the operations the result buffer holds the composed term of the two argument buffers' contents: each
    operation's result read at its own buffer is its function's value, at any other buffer what was there. -/
theorem out_eq (V : Valuation τ sig (Elt F)) :
    after ops V (main_v1 : DevRef τ sig) = refTerm (V (main_arg0 : DevRef τ sig)) (V (main_arg1 : DevRef τ sig)) := by
  after_results
  rfl

set_option maxRecDepth 8192 in
/-- No operation writes the table's buffer. -/
theorem arg0_eq (V : Valuation τ sig (Elt F)) :
    after ops V (main_arg0 : DevRef τ sig) = V (main_arg0 : DevRef τ sig) := by
  after_results

set_option maxRecDepth 8192 in
/-- No operation writes the index words' buffer. -/
theorem arg1_eq (V : Valuation τ sig (Elt F)) :
    after ops V (main_arg1 : DevRef τ sig) = V (main_arg1 : DevRef τ sig) := by
  after_results

/-- On every device, for any float values, from any memory with zero counters: every weakly fair execution of the
    program terminates with the result at the operations' composed term of the arguments, and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefOps

end
-- ==== Proof.RefRead.lean ====
/-
  What the reference's composed term is when every index word lies between 0 and 999 as a signed integer.
  * No word is negative, so no word is replaced by the word plus 1000: the words the program reads are the words given.
  * Each word passes the test against the bounds 0 and 999, so the "and" over the column's one entry per word, started
    from 1, is 1: the kept entry is the gathered one, never the fill value.
  * The gather reads the table at the word's signed value clamped into [0, 999]; for a word in range that is the
    position the word names.
  So the term is the logarithm of the picked entries.
-/
import proofs.«204160_g61692910239824_cont_9to1_m_427_19_alg».proof.Proof.RefOps
import proofs.«204160_g61692910239824_cont_9to1_m_427_19_alg».proof.Proof.Spec
import proofs.«204160_g61692910239824_cont_9to1_m_427_19_alg».proof.Proof.LibRowIndex
import Idealize.ShloMosaic.Lib.Affine
import Idealize.ShloMosaic.Lib.ValueIdx
import Idealize.ShloMosaic.Lib.Pipeline.Value
import Idealize.ShloMosaic.PureOps.Reduce

noncomputable section

namespace Cert.ReferenceIdeal.RefRead

open Cert.ReferenceIdeal Cert.ReferenceIdeal.Gen Cert.ReferenceIdeal.RefOps Idealize.ShloMosaic Idealize.ShloMosaic.ValueIdx
open Cert.Spec (InRange picked pos GH G)

variable {F : FTy → Type} [FloatOps F]

/-- A word in range is not negative, so the program reads the word itself. -/
theorem wrapped_apply {c : IVec S16384 32} (h : InRange c) (j : S16384.Idx) : wrapped c j = c j := by
  have hlt : ¬ IntOp.cmpi .slt (c j) 0#32 = 1#1 := by
    rw [IntOp.cmpi_slt, show (0#32 : BitVec 32).toInt = 0 from by decide]
    have := (h j).1
    omega
  show Scalar.select (IntOp.cmpi .slt (c j) 0#32) (IntOp.addi (c j) 1000#32) (c j) = c j
  rw [eq_zero_of_ne_one hlt, select_zero]

/-- The column's entry for word `e` is that word. -/
theorem column_apply {c : IVec S16384 32} (h : InRange c) (e : Fin 16384) : column c (ix2 e 0) = c (ix1 e) := by
  unfold column
  rw [broadcastInDim_apply _ _ _ _ (ix1 e) (fun a => by
    obtain rfl : a = 0 := Subsingleton.elim _ _
    exact (if_neg (by decide)).symm), wrapped_apply h]

/-- Every index of the column is `(e, 0)`. -/
theorem eq_col (i : S16384x1.Idx) : i = ix2 (i 0) 0 := by
  funext a
  match a with
  | ⟨0, _⟩ => rfl
  | ⟨1, _⟩ => exact Subsingleton.elim (α := Fin 1) _ _

/-- A word in range passes both bound tests. -/
theorem tests_apply {c : IVec S16384 32} (h : InRange c) (i : S16384x1.Idx) :
    IntOp.andi (IntOp.cmpi .sge (column c i) 0#32) (IntOp.cmpi .sle (column c i) 999#32) = 1#1 := by
  obtain ⟨e, rfl⟩ : ∃ e : Fin 16384, i = ix2 e 0 := ⟨i 0, eq_col i⟩
  rw [column_apply h]
  refine IntOp.andi_eq_one.2 ⟨IntOp.cmpi_sge.2 ?_, IntOp.cmpi_sle.2 ?_⟩
  · rw [show (0#32 : BitVec 32).toInt = 0 from by decide]; exact (h _).1
  · rw [show (999#32 : BitVec 32).toInt = 999 from by decide]; exact (h _).2

/-- So the test's bit is 1 at every word: an "and" that starts from 1 and meets only 1s is 1. -/
theorem mask_apply {c : IVec S16384 32} (h : InRange c) (j : S16384.Idx) : mask c j = 1#1 := by
  unfold mask
  rw [Host.reduce_eq_foldl]
  refine List.foldl_fixed' (a := (1#1 : BitVec 1)) (fun i => ?_) _
  show IntOp.andi 1#1 (IntOp.andi (IntOp.cmpi .sge (column c i) 0#32) (IntOp.cmpi .sle (column c i) 999#32)) = 1#1
  rw [tests_apply h i]
  decide

/-- The gathered entry for word `j` is the table at the position the word names. -/
theorem gather_apply {α : Type} (p : S1000.Idx → α) {c : IVec S16384 32} (h : InRange c) (j : S16384.Idx) :
    Host.gather gather_S1000_S16384x1_S16384_n_0_n_n_0_1_1 p (column c) j = p (pos (c j)) := by
  obtain ⟨e, rfl⟩ : ∃ e : Fin 16384, j = ix1 e := ⟨j 0, eq_ix1 j⟩
  have hg := Cert.Lib.RowIndex.vecGather_apply (N := 1000) (E := 16384) (by decide)
    gather_S1000_S16384x1_S16384_n_0_n_n_0_1_1_wf p (column c) e
  refine hg.trans (congrArg p ?_)
  rw [← Cert.Spec.clamp_eq_pos h (ix1 e)]
  refine congrArg (ix1 (n := 1000)) (Fin.ext ?_)
  show min (column c (ix2 e 0)).toInt.toNat (1000 - 1) = min (c (ix1 e)).toInt.toNat (1000 - 1)
  rw [column_apply h]

/-- In range, the kept entries are the picked entries: the gathered entry everywhere, the fill value nowhere. -/
theorem kept_eq_picked {α : Type} (p : S1000.Idx → α) (fill : S16384.Idx → α) {c : IVec S16384 32} (h : InRange c) :
    select (mask c) (Host.gather gather_S1000_S16384x1_S16384_n_0_n_n_0_1_1 p (column c)) fill = picked p c := by
  funext j
  show Scalar.select (mask c j) (Host.gather gather_S1000_S16384x1_S16384_n_0_n_n_0_1_1 p (column c) j) (fill j) = p (pos (c j))
  rw [mask_apply h, select_one, gather_apply p h]

/-- In range, the reference's composed term is the logarithm of the picked entries. -/
theorem refTerm_eq_GH (p : FVec F S1000 .f32) {c : IVec S16384 32} (h : InRange c) : refTerm p c = GH p c :=
  congrArg Host.log (kept_eq_picked p _ h)

/-- On the extended reals that is the picked entries of the table of logarithms. -/
theorem refTerm_eq_G (p : FVec Ideal S1000 .f32) {c : IVec S16384 32} (h : InRange c) :
    refTerm (F := Ideal) p c = G (F := Ideal) p c :=
  (refTerm_eq_GH p h).trans (Cert.Spec.GH_eq_G p c)

end Cert.ReferenceIdeal.RefRead

end
-- ==== Proof.RefRun.lean ====
/-
  The reference's run, with its result named. When every index word lies between 0 and 999 as a signed integer, every
  execution of the reference ends with its result buffer holding, for each word, the logarithm of the table's entry at
  the position the word names, and with both arguments unchanged: the run ends at the operations' composed term, and in
  range that term is the picked entries of the table of logarithms.
-/
import proofs.«204160_g61692910239824_cont_9to1_m_427_19_alg».proof.ReferenceIdeal
import proofs.«204160_g61692910239824_cont_9to1_m_427_19_alg».proof.Proof.Gen.ReferenceIdeal
import proofs.«204160_g61692910239824_cont_9to1_m_427_19_alg».proof.Proof.Spec
import proofs.«204160_g61692910239824_cont_9to1_m_427_19_alg».proof.Proof.LibRowIndex
import proofs.«204160_g61692910239824_cont_9to1_m_427_19_alg».proof.Proof.RefOps
import proofs.«204160_g61692910239824_cont_9to1_m_427_19_alg».proof.Proof.RefRead
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, on the extended reals, from any memory with zero counters whose index words are all in range:
    every weakly fair execution of the reference terminates with the result at the picked entries of the table of
    logarithms, and the arguments unchanged. -/
theorem run (m : (ℓ : Loc nD τ sig) → Buf (Elt Ideal) ℓ) (ρ : Dev nD → PrngReg)
    (hr : ∀ c : Dev nD, Cert.Spec.InRange (m ((c.tc : Thread nD τ).loc main_arg1))) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v1) = Cert.Spec.G (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.ReferenceIdeal.defs (F := Ideal)) _ _).mono
    (fun _ h c => ⟨(h c).1.trans (Cert.ReferenceIdeal.RefRead.refTerm_eq_G _ (hr c)), (h c).2.1, (h c).2.2⟩)
    (Cert.ReferenceIdeal.RefOps.run_term (F := Ideal) m ρ)

end Cert.ReferenceIdeal.RefValue

end
-- ==== Proof.lean ====
/-
  The claim, proved. Two programs compute, from a table `p` of 1000 numbers and 16384 index words `c`, the array whose
  entry `j` is the logarithm of the table's entry at the position the word `c j` names. The kernel takes the logarithm
  of the whole table on the TensorCore and then sixteen vector subcores each pick 1024 entries of that table; the
  reference picks the entries (after replacing a negative word by the word plus 1000, clamping, and masking words out
  of range, none of which changes anything for a word between 0 and 999) and then takes their logarithms. The
  precondition says every index word lies between 0 and 999 as a signed integer.

  * Each program runs to the end from every memory satisfying the precondition and leaves its arguments unchanged:
    the kernel as printed, the kernel on the extended reals, and the reference on the extended reals.
  * The idealized kernel is the printed kernel's own text read on the extended reals: nothing was rewritten.
  * On the extended reals, from memories that agree on the arguments, both end with the same result: the picked
    entries of the table of logarithms.
-/
import proofs.«204160_g61692910239824_cont_9to1_m_427_19_alg».proof.Defs
import proofs.«204160_g61692910239824_cont_9to1_m_427_19_alg».proof.Proof.Gen.Kernel
import proofs.«204160_g61692910239824_cont_9to1_m_427_19_alg».proof.Proof.Gen.Kernel.Skeleton
import proofs.«204160_g61692910239824_cont_9to1_m_427_19_alg».proof.Proof.Gen.Kernel.Launch
import proofs.«204160_g61692910239824_cont_9to1_m_427_19_alg».proof.Proof.Gen.Kernel.Points
import proofs.«204160_g61692910239824_cont_9to1_m_427_19_alg».proof.Proof.Gen.KernelIdeal
import proofs.«204160_g61692910239824_cont_9to1_m_427_19_alg».proof.Proof.Gen.KernelIdeal.Skeleton
import proofs.«204160_g61692910239824_cont_9to1_m_427_19_alg».proof.Proof.Gen.KernelIdeal.Launch
import proofs.«204160_g61692910239824_cont_9to1_m_427_19_alg».proof.Proof.Gen.KernelIdeal.Points
import proofs.«204160_g61692910239824_cont_9to1_m_427_19_alg».proof.Proof.Gen.ReferenceIdeal
import proofs.«204160_g61692910239824_cont_9to1_m_427_19_alg».proof.Proof.Gen.Pre_input_domain
import proofs.«204160_g61692910239824_cont_9to1_m_427_19_alg».proof.Proof.KernelRun
import proofs.«204160_g61692910239824_cont_9to1_m_427_19_alg».proof.Proof.KernelIdealRun
import proofs.«204160_g61692910239824_cont_9to1_m_427_19_alg».proof.Proof.RefRun
import proofs.«204160_g61692910239824_cont_9to1_m_427_19_alg».proof.Proof.PreRange
import Idealize.ShloMosaic.Adequacy
import Idealize.ShloMosaic.Init

noncomputable section

/-! ## The claims -/

namespace Cert.Proof.Claims

open Idealize.ShloMosaic Idealize.SL.Sem

/-- The kernel as printed: it runs, and the table and the index words end as they began. -/
theorem frame_k : Cert.frame_Kernel := fun m ρ hpre =>
  (θ_run (Cert.Kernel.defs (F := Bits)) _ _).mono (fun _ h c => (h c).2)
    (Cert.Kernel.Run.run_main (F := Bits) m ρ (Cert.Kernel.Run.preOK_of_pre m hpre))

/-- The same on the extended reals. -/
theorem frame_ki : Cert.frame_KernelIdeal := fun m ρ hpre =>
  (θ_run (Cert.KernelIdeal.defs (F := Ideal)) _ _).mono (fun _ h c => (h c).2)
    (Cert.KernelIdeal.Run.run_main (F := Ideal) m ρ (Cert.KernelIdeal.Run.preOK_of_pre m hpre))

/-- The reference: under the precondition every index word is in range, so its run applies; the arguments end as they
    began. -/
theorem frame_ri : Cert.frame_ReferenceIdeal := fun m ρ hpre =>
  (θ_run (Cert.ReferenceIdeal.defs (F := Ideal)) _ _).mono (fun _ h c => (h c).2)
    (Cert.ReferenceIdeal.RefValue.run m ρ fun c => Cert.PreRange.inRange_of_pre _ _ (hpre c))

/-- The idealization rewrote no operation. -/
theorem preserves : Cert.preserves_Kernel_KernelIdeal := trivial

/-- On the extended reals, from memories that agree on the table and the index words, both programs end with the same
    result on every device: for each index word, the logarithm table's entry at the position the word names. The kernel
    takes the logarithm of the whole table and then picks; the reference picks and then takes logarithms; in range
    both are that one array. -/
theorem algebraic : Cert.algebraic_KernelIdeal_ReferenceIdeal := by
  intro m ρ m' ρ' hpre hagree
  have hok := Cert.KernelIdeal.Run.preOK_of_pre m hpre
  refine ⟨fun c => Cert.KernelIdeal.Run.res m c, Cert.KernelIdeal.Run.run_main (F := Ideal) m ρ hok, ?_⟩
  refine (θ_run (Cert.ReferenceIdeal.defs (F := Ideal)) _ _).mono (fun _ h c => ⟨(h c).1.trans ?_, (h c).2⟩)
    (Cert.ReferenceIdeal.RefValue.run m' ρ' fun c => ?_)
  · rw [(hagree c).2]
    exact hok c
  · rw [(hagree c).1, (hagree c).2]
    rfl

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
